-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S2048x1024 : Shape := ⟨2, ![2048, 1024]⟩
abbrev S4x2048x2048 : Shape := ⟨3, ![4, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 26
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S8192x1024, .f32⟩
  | .hbm, ⟨11, _⟩ => ⟨S1024x1024, .f32⟩
  | .hbm, ⟨12, _⟩ => ⟨S1024x1024, .bf16⟩
  | .hbm, ⟨13, _⟩ => ⟨S1x1024, .f32⟩
  | .hbm, ⟨14, _⟩ => ⟨S8192x1024, .bf16⟩
  | .hbm, ⟨15, _⟩ => ⟨S4x2048x1024, .bf16⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S8192x1024, .bf16⟩
  | .hbm, ⟨20, _⟩ => ⟨S4x2048x1024, .bf16⟩
  | .hbm, ⟨21, _⟩ => ⟨S1024x1024, .f32⟩
  | .hbm, ⟨22, _⟩ => ⟨S1024x1024, .bf16⟩
  | .hbm, ⟨23, _⟩ => ⟨S1x1024, .f32⟩
  | .hbm, ⟨24, _⟩ => ⟨S4x2048x1024, .f32⟩
  | .hbm, ⟨25, _⟩ => ⟨S4x2048x2048, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | .local _ .vmem, ⟨7, _⟩ => ⟨S2048x1024, .f32⟩
  | .local _ .vmem, ⟨8, _⟩ => ⟨S1024x1024, .bf16⟩
  | .local _ .vmem, ⟨9, _⟩ => ⟨S1x1024, .f32⟩
  | .local _ .vmem, ⟨10, _⟩ => ⟨S2048x1024, .bf16⟩
  | .local _ .vmem, ⟨11, _⟩ => ⟨S2048x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1024x1024, .bf16⟩
  | .local _ .vmem, ⟨15, _⟩ => ⟨S1x1024, .f32⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x256x1024, .f32⟩
  | .local _ .vmem, ⟨21, _⟩ => ⟨S1x256x1024, .f32⟩
  | .local _ .vmem, ⟨22, _⟩ => ⟨S1x256x2048, .f32⟩
  | .local _ .vmem, ⟨23, _⟩ => ⟨S1x256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x2048x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x2048x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  shapeCasts_S8192x1024_S4x2048x1024 : S8192x1024.ShapeCasts S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S2048x1024_S1024x1024_S2048x1024_1_0_0_1_n_n_wf : DotDims.WF S2048x1024 S1024x1024 S2048x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x1024.size a
  hwx0_3 : ∀ i : grid0.Coords, EltTy.bits .bf16 = 32 ∨ (Rect.block (s := S8192x1024) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x1024.size a
  hwx1_0 : ∀ i : grid1.Coords, EltTy.bits .f32 = 32 ∨ (Rect.block (s := S8192x1024) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x1024.size a
  hwx1_3 : ∀ i : grid1.Coords, EltTy.bits .bf16 = 32 ∨ (Rect.block (s := S8192x1024) S2048x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1024.size a ≤ S4x2048x1024.size a
  hwx2_0 : ∀ i : grid2.Coords, EltTy.bits .f32 = 32 ∨ (Rect.block (s := S4x2048x1024) S1x256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x1024.size a ≤ S4x2048x1024.size a
  hwx2_3 : ∀ i : grid2.Coords, EltTy.bits .bf16 = 32 ∨ (Rect.block (s := S4x2048x1024) S1x2048x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048x1024.size a ≤ S4x2048x1024.size a
  hwx2_4 : ∀ i : grid2.Coords, EltTy.bits .bf16 = 32 ∨ (Rect.block (s := S4x2048x1024) S1x2048x1024.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x256x1024.size a ≤ S4x2048x1024.size a
  hwx2_5 : ∀ i : grid2.Coords, EltTy.bits .f32 = 32 ∨ (Rect.block (s := S4x2048x1024) S1x256x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x256x2048.size a ≤ S4x2048x2048.size a
  hwx2_6 : ∀ i : grid2.Coords, EltTy.bits .f32 = 32 ∨ (Rect.block (s := S4x2048x2048) S1x256x2048.size (cc2_transform_6 i) (hinb2_6 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x2048x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x2048x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v15_0) S1x256x1024.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v15_1) S1x256x2048.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S_, .f32⟩
  | .hbm, ⟨10, _⟩ => ⟨S_, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  Scaled dot-product attention with its three linear layers, as functions of coordinates on the extended reals.

  A linear layer sends a row x to x·Wᵀ + b.  With the weight already transposed (Wt h o = W o h) one entry of the
  result is  lin x Wt b o = (∑ h, x h · Wt h o) + b o.  A query row q (after its linear layer) scores against key row
  k as  (∑ h, q h · K k h) · scale;  the row of scores is normalised by the softmax  exp (s k − max s) / ∑ k', exp (s k' − max s),
  the maximum taken from −∞;  the context row is the mix  ∑ k, p k · V k h  of the value rows by those weights.

  The two programs compared compute exactly these, entry by entry, from the nine argument arrays: queries, keys,
  values of extents [4, 2048, 1024], three weights [1024, 1024] and three biases [1024].
-/
import Idealize.ShloMosaic.PureOps.Ideal
import Idealize.ShloMosaic.Lib.ValueIdx

noncomputable section

open scoped BigOperators

namespace Cert.Attn

open Idealize.ShloMosaic Idealize.ShloMosaic.ValueIdx

/-- The factor the scores are scaled by: the word of 2⁻⁵ = 1/√1024. -/
def scale : EReal := Ideal.ofBits .f32 0x3D000000#32

/-- The value a row maximum starts from: the word of −∞. -/
def negInf : EReal := Ideal.ofBits .f32 0xFF800000#32

/-- One entry of a linear layer's row: x·Wt + b at output o, the weight given transposed. -/
def lin (x : Fin 1024 → EReal) (Wt : Fin 1024 → Fin 1024 → EReal) (b : Fin 1024 → EReal) (o : Fin 1024) : EReal :=
  (∑ h : Fin 1024, x h * Wt h o) + b o

/-- The scaled score of a query row against key row k. -/
def score (q : Fin 1024 → EReal) (K : Fin 2048 → Fin 1024 → EReal) (k : Fin 2048) : EReal :=
  (∑ h : Fin 1024, q h * K k h) * scale

/-- A row's maximum, from −∞. -/
def rowMax (s : Fin 2048 → EReal) : EReal := (Finset.univ : Finset (Fin 2048)).fold max negInf s

/-- The exponential of a row shifted by its maximum. -/
def expRow (s : Fin 2048 → EReal) (k : Fin 2048) : EReal := Ideal.exp (s k - rowMax s)

/-- The softmax of a row. -/
def softmax (s : Fin 2048 → EReal) (k : Fin 2048) : EReal := Ideal.div (expRow s k) (∑ k' : Fin 2048, expRow s k')

/-- The mix of the value rows by a row of weights. -/
def mix (p : Fin 2048 → EReal) (V : Fin 2048 → Fin 1024 → EReal) (h : Fin 1024) : EReal :=
  ∑ k : Fin 2048, p k * V k h

/-- The attention weights of one raw query row: its linear layer, the scores against the (projected) key rows, the softmax. -/
def attnRow (x : Fin 1024 → EReal) (Wt : Fin 1024 → Fin 1024 → EReal) (b : Fin 1024 → EReal)
    (K : Fin 2048 → Fin 1024 → EReal) : Fin 2048 → EReal :=
  softmax (score (lin x Wt b) K)

/-- The context row of one raw query row. -/
def ctxRow (x : Fin 1024 → EReal) (Wt : Fin 1024 → Fin 1024 → EReal) (b : Fin 1024 → EReal)
    (K V : Fin 2048 → Fin 1024 → EReal) : Fin 1024 → EReal :=
  mix (attnRow x Wt b K) V

/-- An argument array of extents [4, 2048, 1024], a weight, a bias. -/
abbrev T3 := (⟨3, ![4, 2048, 1024]⟩ : Shape).Idx → EReal
abbrev T2 := (⟨2, ![1024, 1024]⟩ : Shape).Idx → EReal
abbrev T1 := (⟨1, ![1024]⟩ : Shape).Idx → EReal

/-- Row (b, l) of an argument array. -/
def row (x : T3) (b : Fin 4) (l : Fin 2048) : Fin 1024 → EReal := fun h => x (ix3 b l h)
/-- A weight, transposed. -/
def wT (W : T2) : Fin 1024 → Fin 1024 → EReal := fun h o => W (ix2 o h)
/-- A bias. -/
def bias (b : T1) : Fin 1024 → EReal := fun o => b (ix1 o)

/-- The rows of batch b of an argument array after its linear layer. -/
def projRows (x : T3) (W : T2) (b : T1) (bi : Fin 4) : Fin 2048 → Fin 1024 → EReal :=
  fun l => lin (row x bi l) (wT W) (bias b)

/-- The attention weights, entry (b, q, k), of the nine arguments (the values' three are not used). -/
def attn (q k : T3) (Wq : T2) (bq : T1) (Wk : T2) (bk : T1) (b : Fin 4) (qi : Fin 2048) : Fin 2048 → EReal :=
  attnRow (row q b qi) (wT Wq) (bias bq) (projRows k Wk bk b)

/-- The context, entry (b, q, h). -/
def ctx (q k v : T3) (Wq : T2) (bq : T1) (Wk : T2) (bk : T1) (Wv : T2) (bv : T1) (b : Fin 4) (qi : Fin 2048) :
    Fin 1024 → EReal :=
  ctxRow (row q b qi) (wT Wq) (bias bq) (projRows k Wk bk b) (projRows v Wv bv b)

end Cert.Attn

end
-- ==== Proof.Result.lean ====
/-
  The two results as whole arrays: the context [4, 2048, 1024] and the attention weights [4, 2048, 2048] of the nine
  argument arrays, entry (b, q, ·) being the specification's context row and weights row of query row (b, q).
-/
import proofs.«119014_j16716012716549_2_alg».proof.Proof.Spec

noncomputable section

namespace Cert.Attn

open Idealize.ShloMosaic Idealize.ShloMosaic.ValueIdx

/-- The context array. -/
def ctxArr (q k v : T3) (Wq : T2) (bq : T1) (Wk : T2) (bk : T1) (Wv : T2) (bv : T1) :
    (⟨3, ![4, 2048, 1024]⟩ : Shape).Idx → EReal :=
  fun i => ctx q k v Wq bq Wk bk Wv bv ⟨(i 0).val, (i 0).isLt⟩ ⟨(i 1).val, (i 1).isLt⟩ ⟨(i 2).val, (i 2).isLt⟩

/-- The weights array. -/
def attnArr (q k : T3) (Wq : T2) (bq : T1) (Wk : T2) (bk : T1) :
    (⟨3, ![4, 2048, 2048]⟩ : Shape).Idx → EReal :=
  fun i => attn q k Wq bq Wk bk ⟨(i 0).val, (i 0).isLt⟩ ⟨(i 1).val, (i 1).isLt⟩ ⟨(i 2).val, (i 2).isLt⟩

theorem ctxArr_ix3 (q k v : T3) (Wq : T2) (bq : T1) (Wk : T2) (bk : T1) (Wv : T2) (bv : T1)
    (b : Fin 4) (qi : Fin 2048) (h : Fin 1024) :
    ctxArr q k v Wq bq Wk bk Wv bv (ix3 b qi h) = ctx q k v Wq bq Wk bk Wv bv b qi h := rfl

theorem attnArr_ix3 (q k : T3) (Wq : T2) (bq : T1) (Wk : T2) (bk : T1) (b : Fin 4) (qi ki : Fin 2048) :
    attnArr q k Wq bq Wk bk (ix3 b qi ki) = attn q k Wq bq Wk bk b qi ki := rfl

/-- An array of extents [4, 2048, 1024] is determined by its entries at (b, q, h). -/
theorem ext3 {n0 n1 n2 : ℕ} {α : Type} (f g : (⟨3, ![n0, n1, n2]⟩ : Shape).Idx → α)
    (h : ∀ (a : Fin n0) (b : Fin n1) (c : Fin n2), f (ix3 a b c) = g (ix3 a b c)) : f = g :=
  funext fun i => by rw [eq_ix3 i]; exact h _ _ _

end Cert.Attn

end
-- ==== Proof.KernelRun.lean ====
/-
  The idealized kernel program's run with its two results named: every weakly fair execution ends, nothing faulting,
  with the context buffer and the weights buffer at what the last region leaves in them — the contents at the last
  segment boundary of the program's fold through its host stretches and its three regions — and the nine arguments as
  launched.  The run itself is the library's theorem for a program of several regions, over the generated segments;
  the final state is read at the two result buffers as well as at the arguments.
-/
import proofs.«119014_j16716012716549_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the context buffer and the weights buffer at the last boundary's contents. -/
theorem run_results : θ_run defs (onTc (τ := τ) (main (F := F))) ⟨m, fun _ => 0, ρ⟩ (fun r => ∀ c : Dev nD,
      r.2.mem ((c.tc : Thread nD τ).loc main_v15_0) = W6 m ρ c (Proc.devRef .tc main_v15_0)
      ∧ r.2.mem ((c.tc : Thread nD τ).loc main_v15_1) = W6 m ρ c (Proc.devRef .tc main_v15_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v15_0 (by decide)),
       h c _ (mem_uc main_v15_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.ValueRun

end
-- ==== Proof.HostGlue.lean ====
/-
  What each of the three regions finds in its operand buffers.  Between the launch and a region's entry the program
  runs only layout steps on the host — a view of [4, 2048, 1024] as [8192, 1024] rows and back, a weight transposed, a
  bias [1024] viewed as one row [1, 1024], a change of float format (the identity on extended reals) — and earlier
  regions, which write only their own output arrays.  So every operand a region reads is an argument array, or an
  earlier region's output, re-laid:  row b·2048 + l of a flattened array is row (b, l);  entry (h, o) of a transposed
  weight is entry (o, h) of the weight;  entry (0, o) of a bias row is entry o of the bias.
-/
import proofs.«119014_j16716012716549_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.HostGlue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg) (c : Dev nD)

/-! ## Layout steps read at an entry -/

/-- Row (b, l) of a [4, 2048, ·] array is row b·2048 + l of its flattening. -/
def flat (b : Fin 4) (l : Fin 2048) : Fin 8192 := ⟨b.val * 2048 + l.val, by have := b.isLt; have := l.isLt; omega⟩

/-- The flattening [4, 2048, 1024] → [8192, 1024] keeps row-major position. -/
theorem flatten_apply {α : Type} (x : S4x2048x1024.Idx → α) (b : Fin 4) (l : Fin 2048) (h : Fin 1024) :
    shapeCast S8192x1024 x shapeCasts_S4x2048x1024_S8192x1024 (ix2 (flat b l) h) = x (ix3 b l h) :=
  shapeCast_apply x _ _ _ (by rw [Shape.rowMajor_val_three, Shape.rowMajor_val_two]; rfl)

/-- … and so does the way back. -/
theorem unflatten_apply {α : Type} (x : S8192x1024.Idx → α) (b : Fin 4) (l : Fin 2048) (h : Fin 1024) :
    shapeCast S4x2048x1024 x shapeCasts_S8192x1024_S4x2048x1024 (ix3 b l h) = x (ix2 (flat b l) h) :=
  shapeCast_apply x _ _ _ (by rw [Shape.rowMajor_val_three, Shape.rowMajor_val_two]; rfl)

/-- A bias [1024] viewed as one row [1, 1024]. -/
theorem biasRow_apply {α : Type} (x : S1024.Idx → α) (o : Fin 1024) :
    shapeCast S1x1024 x shapeCasts_S1024_S1x1024 (ix2 (0 : Fin 1) o) = x (ix1 o) :=
  shapeCast_apply x _ _ _ (by
    rw [Shape.rowMajor_val_one, Shape.rowMajor_val_two]
    show o.val = 0 * 1024 + o.val
    omega)

/-- Entry (h, o) of a transposed weight is entry (o, h) of the weight. -/
theorem transposed_apply {α : Type} (x : S1024x1024.Idx → α) (h o : Fin 1024) :
    transpose S1024x1024 [1, 0] x transposes_S1024x1024_S1024x1024_1_0 (ix2 h o) = x (ix2 o h) :=
  transpose_apply [1, 0] x _ (ix2 h o) (ix2 o h) (fun b => match b with
    | ⟨0, _⟩ => rfl
    | ⟨1, _⟩ => rfl)

/-! ## An argument array is as launched at every segment boundary: no host step and no region writes one -/

theorem W1_arg0 : W1 m ρ c (Proc.devRef .tc main_arg0) = m ((c : Thread nD τ).loc main_arg0) := by
  show StableHlo.after hostOps0 (W0 m ρ c) (Proc.devRef .tc main_arg0) = _
  after_results
  try rfl
theorem W2_arg0 : W2 m ρ c (Proc.devRef .tc main_arg0) = m ((c : Thread nD τ).loc main_arg0) :=
  (W2_of_ne m ρ c main_arg0 (by decide)).trans (W1_arg0 m ρ c)
theorem W1_arg3 : W1 m ρ c (Proc.devRef .tc main_arg3) = m ((c : Thread nD τ).loc main_arg3) := by
  show StableHlo.after hostOps0 (W0 m ρ c) (Proc.devRef .tc main_arg3) = _
  after_results
  try rfl
theorem W2_arg3 : W2 m ρ c (Proc.devRef .tc main_arg3) = m ((c : Thread nD τ).loc main_arg3) :=
  (W2_of_ne m ρ c main_arg3 (by decide)).trans (W1_arg3 m ρ c)
theorem W1_arg4 : W1 m ρ c (Proc.devRef .tc main_arg4) = m ((c : Thread nD τ).loc main_arg4) := by
  show StableHlo.after hostOps0 (W0 m ρ c) (Proc.devRef .tc main_arg4) = _
  after_results
  try rfl
theorem W2_arg4 : W2 m ρ c (Proc.devRef .tc main_arg4) = m ((c : Thread nD τ).loc main_arg4) :=
  (W2_of_ne m ρ c main_arg4 (by decide)).trans (W1_arg4 m ρ c)
theorem W1_arg7 : W1 m ρ c (Proc.devRef .tc main_arg7) = m ((c : Thread nD τ).loc main_arg7) := by
  show StableHlo.after hostOps0 (W0 m ρ c) (Proc.devRef .tc main_arg7) = _
  after_results
  try rfl
theorem W2_arg7 : W2 m ρ c (Proc.devRef .tc main_arg7) = m ((c : Thread nD τ).loc main_arg7) :=
  (W2_of_ne m ρ c main_arg7 (by decide)).trans (W1_arg7 m ρ c)
theorem W1_arg8 : W1 m ρ c (Proc.devRef .tc main_arg8) = m ((c : Thread nD τ).loc main_arg8) := by
  show StableHlo.after hostOps0 (W0 m ρ c) (Proc.devRef .tc main_arg8) = _
  after_results
  try rfl
theorem W2_arg8 : W2 m ρ c (Proc.devRef .tc main_arg8) = m ((c : Thread nD τ).loc main_arg8) :=
  (W2_of_ne m ρ c main_arg8 (by decide)).trans (W1_arg8 m ρ c)
theorem W3_arg0 : W3 m ρ c (Proc.devRef .tc main_arg0) = m ((c : Thread nD τ).loc main_arg0) := by
  show StableHlo.after hostOps1 (W2 m ρ c) (Proc.devRef .tc main_arg0) = _
  after_results
  exact W2_arg0 m ρ c
theorem W4_arg0 : W4 m ρ c (Proc.devRef .tc main_arg0) = m ((c : Thread nD τ).loc main_arg0) :=
  (W4_of_ne m ρ c main_arg0 (by decide)).trans (W3_arg0 m ρ c)
theorem W3_arg3 : W3 m ρ c (Proc.devRef .tc main_arg3) = m ((c : Thread nD τ).loc main_arg3) := by
  show StableHlo.after hostOps1 (W2 m ρ c) (Proc.devRef .tc main_arg3) = _
  after_results
  exact W2_arg3 m ρ c
theorem W4_arg3 : W4 m ρ c (Proc.devRef .tc main_arg3) = m ((c : Thread nD τ).loc main_arg3) :=
  (W4_of_ne m ρ c main_arg3 (by decide)).trans (W3_arg3 m ρ c)
theorem W3_arg4 : W3 m ρ c (Proc.devRef .tc main_arg4) = m ((c : Thread nD τ).loc main_arg4) := by
  show StableHlo.after hostOps1 (W2 m ρ c) (Proc.devRef .tc main_arg4) = _
  after_results
  exact W2_arg4 m ρ c
theorem W4_arg4 : W4 m ρ c (Proc.devRef .tc main_arg4) = m ((c : Thread nD τ).loc main_arg4) :=
  (W4_of_ne m ρ c main_arg4 (by decide)).trans (W3_arg4 m ρ c)

/-! ## Region 0's operands: the keys flattened, the key weight transposed, the key bias as a row -/

theorem V1_v0 : (V1 m ρ c main_v0 : S8192x1024.Idx → EReal)
    = shapeCast S8192x1024 (m ((c : Thread nD τ).loc main_arg1)) shapeCasts_S4x2048x1024_S8192x1024 := by
  show StableHlo.after hostOps0 (W0 m ρ c) (Proc.devRef .tc main_v0) = _
  after_results
  try rfl

theorem V1_v3 : (V1 m ρ c main_v3 : S1024x1024.Idx → EReal) = truncf (F := Ideal) .bf16 (transpose S1024x1024 [1, 0] (m ((c : Thread nD τ).loc main_arg5)) transposes_S1024x1024_S1024x1024_1_0) bitsLt_bf16_f32 := by
  show StableHlo.after hostOps0 (W0 m ρ c) (Proc.devRef .tc main_v3) = _
  after_results
  try rfl

theorem V1_v4 : (V1 m ρ c main_v4 : S1x1024.Idx → EReal)
    = shapeCast S1x1024 (m ((c : Thread nD τ).loc main_arg6)) shapeCasts_S1024_S1x1024 := by
  show StableHlo.after hostOps0 (W0 m ρ c) (Proc.devRef .tc main_v4) = _
  after_results
  try rfl

/-! ## Region 1's operands: the values flattened (before region 0, untouched since), the value weight, the value bias -/

theorem V3_v1 : (V3 m ρ c main_v1 : S8192x1024.Idx → EReal)
    = shapeCast S8192x1024 (m ((c : Thread nD τ).loc main_arg2)) shapeCasts_S4x2048x1024_S8192x1024 := by
  show StableHlo.after hostOps1 (W2 m ρ c) (Proc.devRef .tc main_v1) = _
  after_results
  rw [W2_of_ne m ρ c main_v1 (by decide)]
  show StableHlo.after hostOps0 (W0 m ρ c) (Proc.devRef .tc main_v1) = _
  after_results
  try rfl

theorem V3_v8 : (V3 m ρ c main_v8 : S1024x1024.Idx → EReal) = truncf (F := Ideal) .bf16 (transpose S1024x1024 [1, 0] (m ((c : Thread nD τ).loc main_arg7)) transposes_S1024x1024_S1024x1024_1_0) bitsLt_bf16_f32 := by
  show StableHlo.after hostOps1 (W2 m ρ c) (Proc.devRef .tc main_v8) = _
  after_results
  rw [W2_arg7 m ρ c]
  try rfl

theorem V3_v9 : (V3 m ρ c main_v9 : S1x1024.Idx → EReal)
    = shapeCast S1x1024 (m ((c : Thread nD τ).loc main_arg8)) shapeCasts_S1024_S1x1024 := by
  show StableHlo.after hostOps1 (W2 m ρ c) (Proc.devRef .tc main_v9) = _
  after_results
  rw [W2_arg8 m ρ c]
  try rfl

/-! ## Region 2's operands: the queries, the query weight and bias, and the two earlier regions' outputs viewed [4, 2048, 1024] -/

theorem V5_arg0 : (V5 m ρ c main_arg0 : S4x2048x1024.Idx → EReal) = (m ((c : Thread nD τ).loc main_arg0)) := by
  show StableHlo.after hostOps2 (W4 m ρ c) (Proc.devRef .tc main_arg0) = _
  after_results
  exact W4_arg0 m ρ c

theorem V5_v13 : (V5 m ρ c main_v13 : S1024x1024.Idx → EReal) = truncf (F := Ideal) .bf16 (transpose S1024x1024 [1, 0] (m ((c : Thread nD τ).loc main_arg3)) transposes_S1024x1024_S1024x1024_1_0) bitsLt_bf16_f32 := by
  show StableHlo.after hostOps2 (W4 m ρ c) (Proc.devRef .tc main_v13) = _
  after_results
  rw [W4_arg3 m ρ c]
  try rfl

theorem V5_v14 : (V5 m ρ c main_v14 : S1x1024.Idx → EReal)
    = shapeCast S1x1024 (m ((c : Thread nD τ).loc main_arg4)) shapeCasts_S1024_S1x1024 := by
  show StableHlo.after hostOps2 (W4 m ρ c) (Proc.devRef .tc main_v14) = _
  after_results
  rw [W4_arg4 m ρ c]
  try rfl

/-- The projected keys region 2 reads are region 0's output array, viewed [4, 2048, 1024]. -/
theorem V5_v6 : (V5 m ρ c main_v6 : S4x2048x1024.Idx → EReal)
    = shapeCast S4x2048x1024 ((dat0 (V1 m ρ) c).arrAt 3 cfg0.N) shapeCasts_S8192x1024_S4x2048x1024 := by
  show StableHlo.after hostOps2 (W4 m ρ c) (Proc.devRef .tc main_v6) = _
  after_results
  rw [W4_of_ne m ρ c main_v6 (by decide)]
  show StableHlo.after hostOps1 (W2 m ρ c) (Proc.devRef .tc main_v6) = _
  after_results
  rw [show (W2 m ρ c (Proc.devRef .tc main_v5)) = (dat0 (V1 m ρ) c).arrAt 3 cfg0.N from W2_arr m ρ c 3]
  try rfl

/-- The projected values region 2 reads are region 1's output array, viewed [4, 2048, 1024]. -/
theorem V5_v11 : (V5 m ρ c main_v11 : S4x2048x1024.Idx → EReal)
    = shapeCast S4x2048x1024 ((dat1 (V3 m ρ) c).arrAt 3 cfg1.N) shapeCasts_S8192x1024_S4x2048x1024 := by
  show StableHlo.after hostOps2 (W4 m ρ c) (Proc.devRef .tc main_v11) = _
  after_results
  rw [show (W4 m ρ c (Proc.devRef .tc main_v10)) = (dat1 (V3 m ρ) c).arrAt 3 cfg1.N from W4_arr m ρ c 3]
  try rfl

/-! ## The same, read at an entry -/

theorem V1_v0_at (b : Fin 4) (l : Fin 2048) (h : Fin 1024) :
    V1 m ρ c main_v0 (ix2 (flat b l) h) = (m ((c : Thread nD τ).loc main_arg1)) (ix3 b l h) :=
  (congrFun (V1_v0 m ρ c) (ix2 (flat b l) h)).trans (flatten_apply _ b l h)
theorem V1_v3_at (h o : Fin 1024) : V1 m ρ c main_v3 (ix2 h o) = (m ((c : Thread nD τ).loc main_arg5)) (ix2 o h) :=
  (congrFun (V1_v3 m ρ c) (ix2 h o)).trans (transposed_apply _ h o)
theorem V1_v4_at (o : Fin 1024) : V1 m ρ c main_v4 (ix2 (0 : Fin 1) o) = (m ((c : Thread nD τ).loc main_arg6)) (ix1 o) :=
  (congrFun (V1_v4 m ρ c) (ix2 (0 : Fin 1) o)).trans (biasRow_apply _ o)

theorem V3_v1_at (b : Fin 4) (l : Fin 2048) (h : Fin 1024) :
    V3 m ρ c main_v1 (ix2 (flat b l) h) = (m ((c : Thread nD τ).loc main_arg2)) (ix3 b l h) :=
  (congrFun (V3_v1 m ρ c) (ix2 (flat b l) h)).trans (flatten_apply _ b l h)
theorem V3_v8_at (h o : Fin 1024) : V3 m ρ c main_v8 (ix2 h o) = (m ((c : Thread nD τ).loc main_arg7)) (ix2 o h) :=
  (congrFun (V3_v8 m ρ c) (ix2 h o)).trans (transposed_apply _ h o)
theorem V3_v9_at (o : Fin 1024) : V3 m ρ c main_v9 (ix2 (0 : Fin 1) o) = (m ((c : Thread nD τ).loc main_arg8)) (ix1 o) :=
  (congrFun (V3_v9 m ρ c) (ix2 (0 : Fin 1) o)).trans (biasRow_apply _ o)

theorem V5_arg0_at (b : Fin 4) (q : Fin 2048) (h : Fin 1024) :
    V5 m ρ c main_arg0 (ix3 b q h) = (m ((c : Thread nD τ).loc main_arg0)) (ix3 b q h) :=
  congrFun (V5_arg0 m ρ c) (ix3 b q h)
theorem V5_v13_at (h o : Fin 1024) : V5 m ρ c main_v13 (ix2 h o) = (m ((c : Thread nD τ).loc main_arg3)) (ix2 o h) :=
  (congrFun (V5_v13 m ρ c) (ix2 h o)).trans (transposed_apply _ h o)
theorem V5_v14_at (o : Fin 1024) : V5 m ρ c main_v14 (ix2 (0 : Fin 1) o) = (m ((c : Thread nD τ).loc main_arg4)) (ix1 o) :=
  (congrFun (V5_v14 m ρ c) (ix2 (0 : Fin 1) o)).trans (biasRow_apply _ o)
theorem V5_v6_at (b : Fin 4) (l : Fin 2048) (h : Fin 1024) :
    V5 m ρ c main_v6 (ix3 b l h) = (dat0 (V1 m ρ) c).arrAt 3 cfg0.N (ix2 (flat b l) h) :=
  (congrFun (V5_v6 m ρ c) (ix3 b l h)).trans (unflatten_apply _ b l h)
theorem V5_v11_at (b : Fin 4) (l : Fin 2048) (h : Fin 1024) :
    V5 m ρ c main_v11 (ix3 b l h) = (dat1 (V3 m ρ) c).arrAt 3 cfg1.N (ix2 (flat b l) h) :=
  (congrFun (V5_v11 m ρ c) (ix3 b l h)).trans (unflatten_apply _ b l h)

end Cert.KernelIdeal.HostGlue

end
-- ==== Proof.ProjPayload.lean ====
/-
  The projection kernel's stored value at an entry: row r of the loaded block through the linear layer.
-/
import proofs.«119014_j16716012716549_2_alg».proof.Proof.Gen.KernelIdeal.Skeleton
import proofs.«119014_j16716012716549_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ProjPayload

open Cert.KernelIdeal Cert.KernelIdeal.Gen Idealize.ShloMosaic Idealize.ShloMosaic.ValueIdx

/-- The left operand of the product is read at the output's row … -/
theorem lhs_row (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl

/-- … and at the contraction position's column; -/
theorem lhs_col (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q

/-- the right operand at the contraction position's row … -/
theorem rhs_row (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q

/-- … and at the output's column. -/
theorem rhs_col (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The product into the zero accumulator at (r, o): the sum over the shared axis of row r of the left operand against
    column o of the right one. -/
theorem mm_apply (L : FVec Ideal S2048x1024 .bf16) (R : FVec Ideal S1024x1024 .bf16) (r : Fin 2048) (o : Fin 1024) :
    matmul dot_S2048x1024_S1024x1024_S2048x1024_1_0_0_1_n_n none L R (constant S2048x1024 .f32 0x00000000#32) (ix2 r o)
      = ∑ k : Fin 1024, L (ix2 r k) * R (ix2 k o) := by
  refine (Ideal.matmul_constant_zero_apply dot_S2048x1024_S1024x1024_S2048x1024_1_0_0_1_n_n none L R (ix2 r o)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r o) ((contrEquiv1 dot_S2048x1024_S1024x1024_S2048x1024_1_0_0_1_n_n 1024 rfl rfl).symm k) = ix2 r k := funext fun a => Fin.ext (by
    match a with
    | ⟨0, _⟩ => exact lhs_row _ _
    | ⟨1, _⟩ => exact (lhs_col _ _).trans hk)
  have er : dot_S2048x1024_S1024x1024_S2048x1024_1_0_0_1_n_n.rhsIdx (ix2 r o) ((contrEquiv1 dot_S2048x1024_S1024x1024_S2048x1024_1_0_0_1_n_n 1024 rfl rfl).symm k) = ix2 k o := funext fun a => Fin.ext (by
    match a with
    | ⟨0, _⟩ => exact (rhs_row _ _).trans hk
    | ⟨1, _⟩ => exact rhs_col _ _)
  rw [el, er]

/-- The body's arithmetic at (r, o), for either projection kernel. -/
theorem body_apply (x0 : Vec Ideal S2048x1024 .f32) (x1 : Vec Ideal S1024x1024 .bf16) (x2 : Vec Ideal S1x1024 .f32)
    (r : Fin 2048) (o : Fin 1024) :
    (truncf .bf16 (addf (matmul dot_S2048x1024_S1024x1024_S2048x1024_1_0_0_1_n_n none
          (truncf .bf16 (shapeCast S2048x1024 x0 Facts₀.shapeCasts_S2048x1024_S2048x1024 : FVec Ideal S2048x1024 .f32) Facts₀.bitsLt_bf16_f32 : FVec Ideal S2048x1024 .bf16)
          (shapeCast S1024x1024 x1 Facts₀.shapeCasts_S1024x1024_S1024x1024 : FVec Ideal S1024x1024 .bf16) (constant S2048x1024 .f32 0x00000000#32))
        (broadcastTo S2048x1024 (shapeCast S1x1024 x2 Facts₀.shapeCasts_S1x1024_S1x1024 : FVec Ideal S1x1024 .f32) Facts₀.broadcasts_S1x1024_S2048x1024 : FVec Ideal S2048x1024 .f32))
      Facts₀.bitsLt_bf16_f32 : FVec Ideal S2048x1024 .bf16) (ix2 r o)
      = Cert.Attn.lin (fun h => x0 (ix2 r h)) (fun h o' => x1 (ix2 h o')) (fun o' => x2 (ix2 (0 : Fin 1) o')) o := by
  rw [truncf_apply, addf_apply, mm_apply, broadcastTo_1b_ab_apply, shapeCast_self, shapeCast_self, shapeCast_self]
  rfl

/-- Region 0's stored block at (r, o): row r of the loaded rows times the loaded (transposed) weight, plus the bias row. -/
theorem pay0 (x0 : Vec Ideal S2048x1024 .f32) (x1 : Vec Ideal S1024x1024 .bf16) (x2 : Vec Ideal S1x1024 .f32)
    (r : Fin 2048) (o : Fin 1024) :
    k0_pay1 (F := Ideal) x0 x1 x2 (ix2 r o)
      = Cert.Attn.lin (fun h => x0 (ix2 r h)) (fun h o' => x1 (ix2 h o')) (fun o' => x2 (ix2 (0 : Fin 1) o')) o :=
  body_apply x0 x1 x2 r o

/-- Region 1's stored block at (r, o): the same function (the two projection kernels are one text). -/
theorem pay1 (x0 : Vec Ideal S2048x1024 .f32) (x1 : Vec Ideal S1024x1024 .bf16) (x2 : Vec Ideal S1x1024 .f32)
    (r : Fin 2048) (o : Fin 1024) :
    k1_pay1 (F := Ideal) x0 x1 x2 (ix2 r o)
      = Cert.Attn.lin (fun h => x0 (ix2 r h)) (fun h o' => x1 (ix2 h o')) (fun o' => x2 (ix2 (0 : Fin 1) o')) o :=
  body_apply x0 x1 x2 r o

end Cert.KernelIdeal.ProjPayload

end
-- ==== Proof.ProjRegion.lean ====
/-
  The two projection regions, each read as one function of the buffers it finds: the array a region leaves has, at row
  r (a row of block r / 2048) and column o, the linear layer of row r of its operand.
-/
import proofs.«119014_j16716012716549_2_alg».proof.Proof.Gen.KernelIdeal.Frame
import proofs.«119014_j16716012716549_2_alg».proof.Proof.ProjPayload
import proofs.«119014_j16716012716549_2_alg».proof.Proof.Spec
import Idealize.ShloMosaic.Lib.Pipeline.Value
import Idealize.ShloMosaic.Lib.ValueIdx

set_option maxRecDepth 16384

noncomputable section

open scoped BigOperators

namespace Cert.KernelIdeal.ProjRegion

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access. -/
theorem hzProj : (![0, 0] : Fin 2 → Nat) = fun _ => 0 := funext fun a => by fin_cases a <;> rfl

/-- The array a projection region leaves: at (r, o) the linear layer of row r of the operand. -/
abbrev GProj (a0 : S8192x1024.Idx → Elt Ideal .f32) (a1 : S1024x1024.Idx → Elt Ideal .bf16) (a2 : S1x1024.Idx → Elt Ideal .f32) :
    S8192x1024.Idx → Elt Ideal .bf16 := fun i =>
  Cert.Attn.lin (fun h => a0 (ix2 (⟨(i 0).val, (i 0).isLt⟩ : Fin 8192) h)) (fun h o' => a1 (ix2 h o'))
    (fun o' => a2 (ix2 (0 : Fin 1) o')) (⟨(i 1).val, (i 1).isLt⟩ : Fin 1024)

/-! ## Region 0 -/

/-- The index maps over the grid: the rows window and the output window sit at block (t, 0), the weight and the bias at (0, 0). -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of GProj: the stored block is the payload of the three loaded blocks, each read
    where its window puts it (the rows at block (t, 0), the weight and the bias whole). -/
theorem flushed0_eq (c : Dev nD) (t : Fin cfg0.N) :
    (dat0 (F := Ideal) V c).flushed 3 t
      = ((cfg0.win 3).blk t).view.read (Elt Ideal) (GProj (V c main_v0) (V c main_v3) (V c main_v4)) := by
  show (cfg0.win 3).cut (grid0.coords t) ((dat0 V c).after 3 t) = _
  rw [after0_3]
  unfold out0_3
  rw [View.canon_unit_zero hzProj]
  simp only [View.ld_unit_zero (S := S2048x1024) hzProj, View.ld_unit_zero (S := S1024x1024) hzProj, View.ld_unit_zero (S := S1x1024) hzProj]
  obtain ⟨e0, e1, e2, e3, e4, e5, e6, e7⟩ := idx_facts0 t
  funext y
  have hy0 : (y 0).val < 2048 := (y 0).isLt
  have hy1 : (y 1).val < 1024 := (y 1).isLt
  have hx : (win0 3).xinj (grid0.coords t) y = ix2 (⟨(y 0).val, hy0⟩ : Fin 2048) (⟨(y 1).val, hy1⟩ : Fin 1024) := by
    funext a; apply Fin.ext
    match a with
    | ⟨0, _⟩ => rfl
    | ⟨1, _⟩ => rfl
  show k0_pay1 (F := Ideal) (iblk0 V c 0 t) (iblk0 V c 1 t) (iblk0 V c 2 t) ((win0 3).xinj (grid0.coords t) y) = _
  refine (congrArg (k0_pay1 (F := Ideal) (iblk0 V c 0 t) (iblk0 V c 1 t) (iblk0 V c 2 t)) hx).trans ?_
  refine (ProjPayload.pay0 _ _ _ _ _).trans ?_
  show _ = GProj (V c main_v0) (V c main_v3) (V c main_v4) (((cfg0.win 3).blk t).view.emb y)
  -- the rows block at (y 0, h) is the operand's row  index × 2048 + y 0
  have hrow : (fun h : Fin 1024 => iblk0 V c 0 t (ix2 (⟨(y 0).val, hy0⟩ : Fin 2048) h))
      = fun h : Fin 1024 => V c main_v0 (ix2 (⟨((((cfg0.win 3).blk t).view.emb y) 0).val, ((((cfg0.win 3).blk t).view.emb y) 0).isLt⟩ : Fin 8192) h) := by
    funext h
    show V c main_v0 (((cfg0.win 0).blk t).view.emb (ix2 (⟨(y 0).val, hy0⟩ : Fin 2048) h)) = _
    refine congrArg (V c main_v0) (funext fun a => Fin.ext ?_)
    match a with
    | ⟨0, _⟩ => show win0_0.index t (0 : Fin 2) * 2048 + 1 * (y 0).val = win0_3.index t (0 : Fin 2) * 2048 + 1 * (y 0).val; omega
    | ⟨1, _⟩ => show win0_0.index t (1 : Fin 2) * 1024 + 1 * h.val = h.val; omega
  -- the weight and the bias blocks are their whole arrays
  have hW : (fun (h o' : Fin 1024) => iblk0 V c 1 t (ix2 h o')) = fun (h o' : Fin 1024) => V c main_v3 (ix2 h o') := by
    funext h o'
    show V c main_v3 (((cfg0.win 1).blk t).view.emb (ix2 h o')) = _
    refine congrArg (V c main_v3) (funext fun a => Fin.ext ?_)
    match a with
    | ⟨0, _⟩ => show win0_1.index t (0 : Fin 2) * 1024 + 1 * h.val = h.val; omega
    | ⟨1, _⟩ => show win0_1.index t (1 : Fin 2) * 1024 + 1 * o'.val = o'.val; omega
  have hb : (fun o' : Fin 1024 => iblk0 V c 2 t (ix2 (0 : Fin 1) o')) = fun o' : Fin 1024 => V c main_v4 (ix2 (0 : Fin 1) o') := by
    funext o'
    show V c main_v4 (((cfg0.win 2).blk t).view.emb (ix2 (0 : Fin 1) o')) = _
    refine congrArg (V c main_v4) (funext fun a => Fin.ext ?_)
    match a with
    | ⟨0, _⟩ => show win0_2.index t (0 : Fin 2) * 1 + 1 * 0 = 0; omega
    | ⟨1, _⟩ => show win0_2.index t (1 : Fin 2) * 1024 + 1 * o'.val = o'.val; omega
  have ho : (⟨(y 1).val, hy1⟩ : Fin 1024) = ⟨((((cfg0.win 3).blk t).view.emb y) 1).val, ((((cfg0.win 3).blk t).view.emb y) 1).isLt⟩ := by
    apply Fin.ext
    show (y 1).val = win0_3.index t (1 : Fin 2) * 1024 + 1 * (y 1).val
    omega
  exact congr (congr (congr (congrArg Cert.Attn.lin hrow) hW) hb) ho

/-- An index of the array is in point t's block iff each coordinate is in the block's range on its axis. -/
theorem mem_blk0 (t : Fin cfg0.N) (i : S8192x1024.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v5).slice (win0_3.rect t)).set ↔ _
  rw [View.set_slice_whole, Rect.mem_set_unit]
  exact Iff.rfl

/-- Row r of the array lies in the block of point r / 2048: the four blocks of 2048 rows tile the 8192 rows. -/
theorem cover0 (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : grid0.N = 4 := N_0
  have ht : (i 0).val / 2048 < grid0.N := by omega
  obtain ⟨-, -, -, -, -, -, e6, e7⟩ := idx_facts0 ⟨(i 0).val / 2048, ht⟩
  have e6' : win0_3.index ⟨(i 0).val / 2048, ht⟩ (0 : Fin 2) = (i 0).val / 2048 := e6
  refine ⟨⟨(i 0).val / 2048, ht⟩, flush0_3 _, ?_⟩
  rw [mem_blk0]
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    omega
  | ⟨1, _⟩ =>
    show win0_3.index ⟨(i 0).val / 2048, ht⟩ (1 : Fin 2) * 1024 ≤ (i 1).val ∧ (i 1).val < win0_3.index ⟨(i 0).val / 2048, ht⟩ (1 : Fin 2) * 1024 + 1024
    omega

/-- The array region 0 leaves is GProj of the three operand arrays as the region finds them. -/
theorem arr0 (c : Dev nD) : (dat0 (F := Ideal) V c).arrAt 3 cfg0.N = GProj (V c main_v0) (V c main_v3) (V c main_v4) :=
  (dat0 (F := Ideal) V c).arrAt_eq_of_cover 3 (GProj (V c main_v0) (V c main_v3) (V c main_v4))
    (fun t _ => flushed0_eq V c t) cover0

/-- Region 0 leaves, at (r, o), the linear layer of row r of its first operand by its second, plus its third. -/
theorem final0 (c : Dev nD) (r : Fin 8192) (o : Fin 1024) :
    (dat0 (F := Ideal) V c).arrAt 3 cfg0.N (ix2 r o)
      = Cert.Attn.lin (fun h => V c main_v0 (ix2 r h)) (fun h o' => V c main_v3 (ix2 h o'))
          (fun o' => V c main_v4 (ix2 (0 : Fin 1) o')) o := by
  refine (congrFun (arr0 V c) (ix2 r o)).trans ?_
  rfl

/-! ## Region 1 -/

/-- The index maps over the grid: the rows window and the output window sit at block (t, 0), the weight and the bias at (0, 0). -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Region 1's write-back at point t is block t of GProj of its own operands, by the same steps. -/
theorem flushed1_eq (c : Dev nD) (t : Fin cfg1.N) :
    (dat1 (F := Ideal) V c).flushed 3 t
      = ((cfg1.win 3).blk t).view.read (Elt Ideal) (GProj (V c main_v1) (V c main_v8) (V c main_v9)) := by
  show (cfg1.win 3).cut (grid1.coords t) ((dat1 V c).after 3 t) = _
  rw [after1_3]
  unfold out1_3
  rw [View.canon_unit_zero hzProj]
  simp only [View.ld_unit_zero (S := S2048x1024) hzProj, View.ld_unit_zero (S := S1024x1024) hzProj, View.ld_unit_zero (S := S1x1024) hzProj]
  obtain ⟨e0, e1, e2, e3, e4, e5, e6, e7⟩ := idx_facts1 t
  funext y
  have hy0 : (y 0).val < 2048 := (y 0).isLt
  have hy1 : (y 1).val < 1024 := (y 1).isLt
  have hx : (win1 3).xinj (grid1.coords t) y = ix2 (⟨(y 0).val, hy0⟩ : Fin 2048) (⟨(y 1).val, hy1⟩ : Fin 1024) := by
    funext a; apply Fin.ext
    match a with
    | ⟨0, _⟩ => rfl
    | ⟨1, _⟩ => rfl
  show k1_pay1 (F := Ideal) (iblk1 V c 0 t) (iblk1 V c 1 t) (iblk1 V c 2 t) ((win1 3).xinj (grid1.coords t) y) = _
  refine (congrArg (k1_pay1 (F := Ideal) (iblk1 V c 0 t) (iblk1 V c 1 t) (iblk1 V c 2 t)) hx).trans ?_
  refine (ProjPayload.pay1 _ _ _ _ _).trans ?_
  show _ = GProj (V c main_v1) (V c main_v8) (V c main_v9) (((cfg1.win 3).blk t).view.emb y)
  -- the rows block at (y 0, h) is the operand's row  index × 2048 + y 0
  have hrow : (fun h : Fin 1024 => iblk1 V c 0 t (ix2 (⟨(y 0).val, hy0⟩ : Fin 2048) h))
      = fun h : Fin 1024 => V c main_v1 (ix2 (⟨((((cfg1.win 3).blk t).view.emb y) 0).val, ((((cfg1.win 3).blk t).view.emb y) 0).isLt⟩ : Fin 8192) h) := by
    funext h
    show V c main_v1 (((cfg1.win 0).blk t).view.emb (ix2 (⟨(y 0).val, hy0⟩ : Fin 2048) h)) = _
    refine congrArg (V c main_v1) (funext fun a => Fin.ext ?_)
    match a with
    | ⟨0, _⟩ => show win1_0.index t (0 : Fin 2) * 2048 + 1 * (y 0).val = win1_3.index t (0 : Fin 2) * 2048 + 1 * (y 0).val; omega
    | ⟨1, _⟩ => show win1_0.index t (1 : Fin 2) * 1024 + 1 * h.val = h.val; omega
  -- the weight and the bias blocks are their whole arrays
  have hW : (fun (h o' : Fin 1024) => iblk1 V c 1 t (ix2 h o')) = fun (h o' : Fin 1024) => V c main_v8 (ix2 h o') := by
    funext h o'
    show V c main_v8 (((cfg1.win 1).blk t).view.emb (ix2 h o')) = _
    refine congrArg (V c main_v8) (funext fun a => Fin.ext ?_)
    match a with
    | ⟨0, _⟩ => show win1_1.index t (0 : Fin 2) * 1024 + 1 * h.val = h.val; omega
    | ⟨1, _⟩ => show win1_1.index t (1 : Fin 2) * 1024 + 1 * o'.val = o'.val; omega
  have hb : (fun o' : Fin 1024 => iblk1 V c 2 t (ix2 (0 : Fin 1) o')) = fun o' : Fin 1024 => V c main_v9 (ix2 (0 : Fin 1) o') := by
    funext o'
    show V c main_v9 (((cfg1.win 2).blk t).view.emb (ix2 (0 : Fin 1) o')) = _
    refine congrArg (V c main_v9) (funext fun a => Fin.ext ?_)
    match a with
    | ⟨0, _⟩ => show win1_2.index t (0 : Fin 2) * 1 + 1 * 0 = 0; omega
    | ⟨1, _⟩ => show win1_2.index t (1 : Fin 2) * 1024 + 1 * o'.val = o'.val; omega
  have ho : (⟨(y 1).val, hy1⟩ : Fin 1024) = ⟨((((cfg1.win 3).blk t).view.emb y) 1).val, ((((cfg1.win 3).blk t).view.emb y) 1).isLt⟩ := by
    apply Fin.ext
    show (y 1).val = win1_3.index t (1 : Fin 2) * 1024 + 1 * (y 1).val
    omega
  exact congr (congr (congr (congrArg Cert.Attn.lin hrow) hW) hb) ho

/-- An index of the array is in point t's block iff each coordinate is in the block's range on its axis. -/
theorem mem_blk1 (t : Fin cfg1.N) (i : S8192x1024.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v10).slice (win1_3.rect t)).set ↔ _
  rw [View.set_slice_whole, Rect.mem_set_unit]
  exact Iff.rfl

/-- Row r of the array lies in the block of point r / 2048: the four blocks of 2048 rows tile the 8192 rows. -/
theorem cover1 (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : grid1.N = 4 := N_1
  have ht : (i 0).val / 2048 < grid1.N := by omega
  obtain ⟨-, -, -, -, -, -, e6, e7⟩ := idx_facts1 ⟨(i 0).val / 2048, ht⟩
  have e6' : win1_3.index ⟨(i 0).val / 2048, ht⟩ (0 : Fin 2) = (i 0).val / 2048 := e6
  refine ⟨⟨(i 0).val / 2048, ht⟩, flush1_3 _, ?_⟩
  rw [mem_blk1]
  intro a
  match a with
  | ⟨0, _⟩ =>
    show win1_3.index ⟨(i 0).val / 2048, ht⟩ (0 : Fin 2) * 2048 ≤ (i 0).val ∧ (i 0).val < win1_3.index ⟨(i 0).val / 2048, ht⟩ (0 : Fin 2) * 2048 + 2048
    omega
  | ⟨1, _⟩ =>
    show win1_3.index ⟨(i 0).val / 2048, ht⟩ (1 : Fin 2) * 1024 ≤ (i 1).val ∧ (i 1).val < win1_3.index ⟨(i 0).val / 2048, ht⟩ (1 : Fin 2) * 1024 + 1024
    omega

/-- The array region 1 leaves is GProj of the three operand arrays as the region finds them. -/
theorem arr1 (c : Dev nD) : (dat1 (F := Ideal) V c).arrAt 3 cfg1.N = GProj (V c main_v1) (V c main_v8) (V c main_v9) :=
  (dat1 (F := Ideal) V c).arrAt_eq_of_cover 3 (GProj (V c main_v1) (V c main_v8) (V c main_v9))
    (fun t _ => flushed1_eq V c t) cover1

/-- Region 1 likewise, on its own operands. -/
theorem final1 (c : Dev nD) (r : Fin 8192) (o : Fin 1024) :
    (dat1 (F := Ideal) V c).arrAt 3 cfg1.N (ix2 r o)
      = Cert.Attn.lin (fun h => V c main_v1 (ix2 r h)) (fun h o' => V c main_v8 (ix2 h o'))
          (fun o' => V c main_v9 (ix2 (0 : Fin 1) o')) o := by
  refine (congrFun (arr1 V c) (ix2 r o)).trans ?_
  rfl

end Cert.KernelIdeal.ProjRegion

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.AttnPayload.lean ====
/-
  The attention kernel's two stored values at an entry: the softmax weights of query row q, and their mix of the value rows.
-/
import proofs.«119014_j16716012716549_2_alg».proof.Proof.Gen.KernelIdeal.Skeleton
import proofs.«119014_j16716012716549_2_alg».proof.Proof.Spec
import proofs.«119014_j16716012716549_2_alg».proof.Proof.LibKeepDims
import proofs.«119014_j16716012716549_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.AttnPayload

open Cert.KernelIdeal Cert.KernelIdeal.Gen Idealize.ShloMosaic Idealize.ShloMosaic.ValueIdx

/-- The plain product of a [256, 1024] block by a [1024, 1024] block into the zero block, at (q, o). -/
theorem dotQW_apply (L : FVec Ideal S256x1024 .bf16) (R : FVec Ideal S1024x1024 .bf16) (q : Fin 256) (o : Fin 1024) :
    matmul (F := Ideal) dot_S256x1024_S1024x1024_S256x1024_1_0_0_1_n_n none L R (constant S256x1024 .f32 0x00000000#32) (ix2 q o)
      = ∑ h : Fin 1024, L (ix2 q h) * R (ix2 h o) :=
  Cert.LibPlainDot.matmul_zero_apply (n := 256) (a := 1024) (b := 1024) none L R q o

/-- The plain product of a [256, 2048] block by a [2048, 1024] block into the zero block, at (q, h). -/
theorem dotPV_apply (L : FVec Ideal S256x2048 .bf16) (R : FVec Ideal S2048x1024 .bf16) (q : Fin 256) (h : Fin 1024) :
    matmul (F := Ideal) dot_S256x2048_S2048x1024_S256x1024_1_0_0_1_n_n none L R (constant S256x1024 .f32 0x00000000#32) (ix2 q h)
      = ∑ k : Fin 2048, L (ix2 q k) * R (ix2 k h) :=
  Cert.LibPlainDot.matmul_zero_apply (n := 256) (a := 2048) (b := 1024) none L R q h

/-- The q·kᵀ dimension numbers contract one axis … -/
theorem dQK_contr_rank : dot_S256x1024_S2048x1024_S256x2048_1_1_0_0_n_n.contr.rank = 1 := rfl

/-- … of extent 1024. -/
theorem dQK_contr_size :
    dot_S256x1024_S2048x1024_S256x2048_1_1_0_0_n_n.contr.size ⟨0, by rw [dQK_contr_rank]; exact Nat.one_pos⟩ = 1024 := rfl

/-- The left operand is read at the result's row … -/
theorem dQK_lhs_row (i : S256x2048.Idx) (c : dot_S256x1024_S2048x1024_S256x2048_1_1_0_0_n_n.contr.Idx) :
    (dot_S256x1024_S2048x1024_S256x2048_1_1_0_0_n_n.lhsIdx i c (0 : Fin 2)).val = (i 0).val := rfl

/-- … and at the contraction position's column; -/
theorem dQK_lhs_col (i : S256x2048.Idx) (c : dot_S256x1024_S2048x1024_S256x2048_1_1_0_0_n_n.contr.Idx) :
    (dot_S256x1024_S2048x1024_S256x2048_1_1_0_0_n_n.lhsIdx i c (1 : Fin 2)).val
      = (c ⟨0, by rw [dQK_contr_rank]; exact Nat.one_pos⟩).val :=
  dot_S256x1024_S2048x1024_S256x2048_1_1_0_0_n_n.lhsIdx_val_of_single rfl i c

/-- the right operand at the row the result's column names … -/
theorem dQK_rhs_row (i : S256x2048.Idx) (c : dot_S256x1024_S2048x1024_S256x2048_1_1_0_0_n_n.contr.Idx) :
    (dot_S256x1024_S2048x1024_S256x2048_1_1_0_0_n_n.rhsIdx i c (0 : Fin 2)).val = (i 1).val := rfl

/-- … and at the contraction position's column too. -/
theorem dQK_rhs_col (i : S256x2048.Idx) (c : dot_S256x1024_S2048x1024_S256x2048_1_1_0_0_n_n.contr.Idx) :
    (dot_S256x1024_S2048x1024_S256x2048_1_1_0_0_n_n.rhsIdx i c (1 : Fin 2)).val
      = (c ⟨0, by rw [dQK_contr_rank]; exact Nat.one_pos⟩).val :=
  dot_S256x1024_S2048x1024_S256x2048_1_1_0_0_n_n.rhsIdx_val_of_single rfl i c

/-- The product of a [256, 1024] block by the transpose of a [2048, 1024] block into the zero block, at (q, k):
    both operands are contracted along their second axis. -/
theorem dotQK_apply (L : FVec Ideal S256x1024 .bf16) (R : FVec Ideal S2048x1024 .bf16) (q : Fin 256) (k : Fin 2048) :
    matmul (F := Ideal) dot_S256x1024_S2048x1024_S256x2048_1_1_0_0_n_n none L R (constant S256x2048 .f32 0x00000000#32) (ix2 q k)
      = ∑ h : Fin 1024, L (ix2 q h) * R (ix2 k h) := by
  refine (Ideal.matmul_constant_zero_apply dot_S256x1024_S2048x1024_S256x2048_1_1_0_0_n_n none L R (ix2 q k)).trans ?_
  rw [← Equiv.sum_comp (contrEquiv1 dot_S256x1024_S2048x1024_S256x2048_1_1_0_0_n_n 1024 dQK_contr_rank dQK_contr_size).symm]
  refine Finset.sum_congr rfl fun h _ => ?_
  have hh := contrEquiv1_symm_val dot_S256x1024_S2048x1024_S256x2048_1_1_0_0_n_n 1024 dQK_contr_rank dQK_contr_size h
  have el : dot_S256x1024_S2048x1024_S256x2048_1_1_0_0_n_n.lhsIdx (ix2 q k)
      ((contrEquiv1 dot_S256x1024_S2048x1024_S256x2048_1_1_0_0_n_n 1024 dQK_contr_rank dQK_contr_size).symm h) = ix2 q h :=
    funext fun c => Fin.ext (by
      match c with
      | ⟨0, _⟩ => exact dQK_lhs_row _ _
      | ⟨1, _⟩ => exact (dQK_lhs_col _ _).trans hh)
  have er : dot_S256x1024_S2048x1024_S256x2048_1_1_0_0_n_n.rhsIdx (ix2 q k)
      ((contrEquiv1 dot_S256x1024_S2048x1024_S256x2048_1_1_0_0_n_n 1024 dQK_contr_rank dQK_contr_size).symm h) = ix2 k h :=
    funext fun c => Fin.ext (by
      match c with
      | ⟨0, _⟩ => exact dQK_rhs_row _ _
      | ⟨1, _⟩ => exact (dQK_rhs_col _ _).trans hh)
  rw [el, er]

/-- The index over row q of a [256, 2048] block with coordinate k' put back on the reduced axis is (q, k'). -/
theorem lift_eq (q : Fin 256) (k' : Fin 2048) : reduces_S256x2048_S256.lift (ix1 q) k' = ix2 q k' :=
  funext fun c => Fin.ext (by
    match c with
    | ⟨0, _⟩ => rfl
    | ⟨1, _⟩ => rfl)

/-- A block's row maxima from −∞, kept as a column and spread back along the rows. -/
def maxB (S : FVec Ideal S256x2048 .f32) : FVec Ideal S256x2048 .f32 :=
  broadcastTo S256x2048
    (shapeCast S256x1 (multiReduction .maximumf [1] S256 S 0xFF800000#32 reduces_S256x2048_S256 (.inl rfl) rfl) shapeCasts_S256_S256x1)
    broadcasts_S256x1_S256x2048

/-- A block's row sums from 0, kept as a column and spread back along the rows. -/
def sumB (E : FVec Ideal S256x2048 .f32) : FVec Ideal S256x2048 .f32 :=
  broadcastTo S256x2048
    (shapeCast S256x1 (multiReduction .add [1] S256 E 0x00000000#32 reduces_S256x2048_S256 (.inl rfl) rfl) shapeCasts_S256_S256x1)
    broadcasts_S256x1_S256x2048

/-- The exponentials of a block's entries, each row shifted by its maximum. -/
def expB (S : FVec Ideal S256x2048 .f32) : FVec Ideal S256x2048 .f32 := exp (subf S (maxB S))

/-- The row-wise softmax of a block. -/
def smxB (S : FVec Ideal S256x2048 .f32) : FVec Ideal S256x2048 .f32 := divf (expB S) (sumB (expB S))

/-- At (q, k) the spread maximum is row q's maximum. -/
theorem maxB_apply (S : FVec Ideal S256x2048 .f32) (q : Fin 256) (k : Fin 2048) :
    maxB S (ix2 q k) = Cert.Attn.rowMax (fun k' => S (ix2 q k')) := by
  unfold maxB
  refine (Cert.Lib.KeepDims.broadcastTo_a1_ab_apply _ broadcasts_S256x1_S256x2048 q k).trans ?_
  refine (Cert.Lib.KeepDims.shapeCast_a_a1_apply _ shapeCasts_S256_S256x1 q 0).trans ?_
  refine (Ideal.multiReduction_maximumf_single S 0xFF800000#32 reduces_S256x2048_S256 (.inl rfl) rfl (ix1 q)).trans ?_
  exact congrArg (fun f => (Finset.univ : Finset (Fin 2048)).fold max Cert.Attn.negInf f)
    (funext fun k' => congrArg S (lift_eq q k'))

/-- At (q, k) the spread sum is row q's sum. -/
theorem sumB_apply (E : FVec Ideal S256x2048 .f32) (q : Fin 256) (k : Fin 2048) :
    sumB E (ix2 q k) = ∑ k' : Fin 2048, E (ix2 q k') := by
  unfold sumB
  refine (Cert.Lib.KeepDims.broadcastTo_a1_ab_apply _ broadcasts_S256x1_S256x2048 q k).trans ?_
  refine (Cert.Lib.KeepDims.shapeCast_a_a1_apply _ shapeCasts_S256_S256x1 q 0).trans ?_
  refine (Ideal.multiReduction_add_single E 0x00000000#32 reduces_S256x2048_S256 (.inl rfl) rfl (ix1 q)).trans ?_
  exact Finset.sum_congr rfl fun k' _ => congrArg E (lift_eq q k')

/-- At (q, k) the shifted exponential is the specification's, of row q. -/
theorem expB_apply (S : FVec Ideal S256x2048 .f32) (q : Fin 256) (k : Fin 2048) :
    expB S (ix2 q k) = Cert.Attn.expRow (fun k' => S (ix2 q k')) k :=
  congrArg (fun m => Ideal.exp (S (ix2 q k) - m)) (maxB_apply S q k)

/-- At (q, k) the block softmax is the specification's softmax of row q. -/
theorem smxB_apply (S : FVec Ideal S256x2048 .f32) (q : Fin 256) (k : Fin 2048) :
    smxB S (ix2 q k) = Cert.Attn.softmax (fun k' => S (ix2 q k')) k :=
  congrArg₂ Ideal.div (expB_apply S q k)
    ((sumB_apply (expB S) q k).trans (Finset.sum_congr rfl fun k' _ => expB_apply S q k'))

/-- The projected query rows: the query block without its unit axis, times the weight block, plus the bias row. -/
def qryB (x0 : Vec Ideal S1x256x1024 .f32) (x1 : Vec Ideal S1024x1024 .bf16) (x2 : Vec Ideal S1x1024 .f32) :
    FVec Ideal S256x1024 .bf16 :=
  truncf .bf16
    (addf
      (matmul dot_S256x1024_S1024x1024_S256x1024_1_0_0_1_n_n none
        (truncf .bf16 (shapeCast S256x1024 x0 shapeCasts_S1x256x1024_S256x1024 : FVec Ideal S256x1024 .f32) bitsLt_bf16_f32)
        (shapeCast S1024x1024 x1 shapeCasts_S1024x1024_S1024x1024 : FVec Ideal S1024x1024 .bf16)
        (constant S256x1024 .f32 0x00000000#32))
      (broadcastTo S256x1024 (shapeCast S1x1024 x2 shapeCasts_S1x1024_S1x1024 : FVec Ideal S1x1024 .f32)
        broadcasts_S1x1024_S256x1024))
    bitsLt_bf16_f32

/-- The scaled scores of a block of query rows against the key block without its unit axis. -/
def scrB (Q : FVec Ideal S256x1024 .bf16) (x3 : Vec Ideal S1x2048x1024 .bf16) : FVec Ideal S256x2048 .f32 :=
  mulf
    (matmul dot_S256x1024_S2048x1024_S256x2048_1_1_0_0_n_n none Q
      (shapeCast S2048x1024 x3 shapeCasts_S1x2048x1024_S2048x1024 : FVec Ideal S2048x1024 .bf16)
      (constant S256x2048 .f32 0x00000000#32))
    (broadcast S256x2048 (Scalar.ofBits .f32 0x3D000000#32))

/-- The weights block before its unit axis is put back is the softmax of the scores of the projected query rows. -/
theorem pay2_eq (x0 : Vec Ideal S1x256x1024 .f32) (x1 : Vec Ideal S1024x1024 .bf16) (x2 : Vec Ideal S1x1024 .f32)
    (x3 : Vec Ideal S1x2048x1024 .bf16) :
    k2_pay2 (F := Ideal) x0 x1 x2 x3 = smxB (scrB (qryB x0 x1 x2) x3) := rfl

/-- Row q of the projected query rows is the linear layer of row q of the query block. -/
theorem qryB_apply (x0 : Vec Ideal S1x256x1024 .f32) (x1 : Vec Ideal S1024x1024 .bf16) (x2 : Vec Ideal S1x1024 .f32)
    (q : Fin 256) (o : Fin 1024) :
    qryB x0 x1 x2 (ix2 q o)
      = Cert.Attn.lin (fun h => x0 (ix3 (0 : Fin 1) q h)) (fun h o => x1 (ix2 h o)) (fun o => x2 (ix2 (0 : Fin 1) o)) o := by
  unfold qryB Cert.Attn.lin
  refine congrArg₂ (fun a b : EReal => a + b) ?_ ?_
  · refine (dotQW_apply _ _ q o).trans (Finset.sum_congr rfl fun h _ => congrArg₂ (fun a b : EReal => a * b) ?_ ?_)
    · exact shapeCast_1ab_ab_apply x0 shapeCasts_S1x256x1024_S256x1024 q h
    · exact congrFun (shapeCast_self x1 shapeCasts_S1024x1024_S1024x1024) (ix2 h o)
  · refine (broadcastTo_1b_ab_apply _ broadcasts_S1x1024_S256x1024 q o).trans ?_
    exact congrFun (shapeCast_self x2 shapeCasts_S1x1024_S1x1024) (ix2 (0 : Fin 1) o)

/-- At (q, k) the scores block is the scaled score of query row q against key row k. -/
theorem scrB_apply (Q : FVec Ideal S256x1024 .bf16) (x3 : Vec Ideal S1x2048x1024 .bf16) (q : Fin 256) (k : Fin 2048) :
    scrB Q x3 (ix2 q k) = Cert.Attn.score (fun h => Q (ix2 q h)) (fun k' h => x3 (ix3 (0 : Fin 1) k' h)) k := by
  unfold scrB Cert.Attn.score
  refine congrArg₂ (fun a b : EReal => a * b) ?_ rfl
  refine (dotQK_apply _ _ q k).trans (Finset.sum_congr rfl fun h _ => congrArg₂ (fun a b : EReal => a * b) rfl ?_)
  exact shapeCast_1ab_ab_apply x3 shapeCasts_S1x2048x1024_S2048x1024 k h

/-- The weights block before its unit axis is put back, at (q, k). -/
theorem pay2_entry (x0 : Vec Ideal S1x256x1024 .f32) (x1 : Vec Ideal S1024x1024 .bf16) (x2 : Vec Ideal S1x1024 .f32)
    (x3 : Vec Ideal S1x2048x1024 .bf16) (q : Fin 256) (k : Fin 2048) :
    k2_pay2 (F := Ideal) x0 x1 x2 x3 (ix2 q k)
      = Cert.Attn.attnRow (fun h => x0 (ix3 (0 : Fin 1) q h)) (fun h o => x1 (ix2 h o)) (fun o => x2 (ix2 (0 : Fin 1) o))
          (fun k' h => x3 (ix3 (0 : Fin 1) k' h)) k := by
  rw [pay2_eq]
  refine (smxB_apply _ q k).trans ?_
  unfold Cert.Attn.attnRow
  refine congrArg (fun s => Cert.Attn.softmax s k) (funext fun k' => ?_)
  refine (scrB_apply _ x3 q k').trans ?_
  exact congrArg (fun r => Cert.Attn.score r (fun k' h => x3 (ix3 (0 : Fin 1) k' h)) k')
    (funext fun h => qryB_apply x0 x1 x2 q h)

/-- The weights block stored at (0, q, k): the softmax over the keys of query row q's scaled scores. -/
theorem pay_weights (x0 : Vec Ideal S1x256x1024 .f32) (x1 : Vec Ideal S1024x1024 .bf16) (x2 : Vec Ideal S1x1024 .f32)
    (x3 : Vec Ideal S1x2048x1024 .bf16) (q : Fin 256) (k : Fin 2048) :
    k2_pay3 (F := Ideal) x0 x1 x2 x3 (ix3 (0 : Fin 1) q k)
      = Cert.Attn.attnRow (fun h => x0 (ix3 (0 : Fin 1) q h)) (fun h o => x1 (ix2 h o)) (fun o => x2 (ix2 (0 : Fin 1) o))
          (fun k' h => x3 (ix3 (0 : Fin 1) k' h)) k := by
  unfold k2_pay3
  exact (shapeCast_ab_1ab_apply _ shapeCasts_S256x2048_S1x256x2048 (0 : Fin 1) q k).trans (pay2_entry x0 x1 x2 x3 q k)

/-- The context block stored at (0, q, h): the mix of the value rows by those weights. -/
theorem pay_context (x0 : Vec Ideal S1x256x1024 .f32) (x1 : Vec Ideal S1024x1024 .bf16) (x2 : Vec Ideal S1x1024 .f32)
    (x3 x4 : Vec Ideal S1x2048x1024 .bf16) (q : Fin 256) (h : Fin 1024) :
    k2_pay1 (F := Ideal) (k2_pay4 x0 x1 x2 x3 x4) (ix3 (0 : Fin 1) q h)
      = Cert.Attn.ctxRow (fun h' => x0 (ix3 (0 : Fin 1) q h')) (fun h' o => x1 (ix2 h' o)) (fun o => x2 (ix2 (0 : Fin 1) o))
          (fun k' h' => x3 (ix3 (0 : Fin 1) k' h')) (fun k' h' => x4 (ix3 (0 : Fin 1) k' h')) h := by
  unfold k2_pay1
  refine (shapeCast_ab_1ab_apply _ shapeCasts_S256x1024_S1x256x1024 (0 : Fin 1) q h).trans ?_
  unfold k2_pay4 Cert.Attn.ctxRow Cert.Attn.mix
  refine (dotPV_apply _ _ q h).trans (Finset.sum_congr rfl fun k _ => congrArg₂ (fun a b : EReal => a * b) ?_ ?_)
  · exact pay2_entry x0 x1 x2 x3 q k
  · exact shapeCast_1ab_ab_apply x4 shapeCasts_S1x2048x1024_S2048x1024 k h

end Cert.KernelIdeal.AttnPayload

end
-- ==== Proof.AttnRegion.lean ====
/-
  The attention region read as functions of the buffers it finds: its weights array at (b, q, k) and its context array
  at (b, q, h), from query row (b, q), the transposed weight and bias of the query layer, and the key and value rows of
  batch b.
-/
import proofs.«119014_j16716012716549_2_alg».proof.Proof.Gen.KernelIdeal.Frame
import proofs.«119014_j16716012716549_2_alg».proof.Proof.AttnPayload
import proofs.«119014_j16716012716549_2_alg».proof.Proof.Spec
import Idealize.ShloMosaic.Lib.Pipeline.Value
import Idealize.ShloMosaic.Lib.ValueIdx

set_option maxRecDepth 16384

noncomputable section

open scoped BigOperators

namespace Cert.KernelIdeal.AttnRegion

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The two arrays as functions of the buffers the region finds -/

/-- The weights array: entry (b, q, k) is the softmax weight of key k for query row (b, q). -/
def G6 (c : Dev nD) : S4x2048x2048.Idx → Elt Ideal .f32 := fun i =>
  Cert.Attn.attnRow (fun h => V c main_arg0 (ix3 (i 0) (i 1) h)) (fun h o => V c main_v13 (ix2 h o))
    (fun o => V c main_v14 (ix2 (0 : Fin 1) o)) (fun k' h => V c main_v6 (ix3 (i 0) k' h)) (i 2)

/-- The context array: entry (b, q, h) is coordinate h of the mix of batch b's value rows by query row (b, q)'s weights. -/
def G5 (c : Dev nD) : S4x2048x1024.Idx → Elt Ideal .f32 := fun i =>
  Cert.Attn.ctxRow (fun h' => V c main_arg0 (ix3 (i 0) (i 1) h')) (fun h' o => V c main_v13 (ix2 h' o))
    (fun o => V c main_v14 (ix2 (0 : Fin 1) o)) (fun k' h' => V c main_v6 (ix3 (i 0) k' h'))
    (fun k' h' => V c main_v11 (ix3 (i 0) k' h')) (i 2)

/-- The weights of a row depend only on the row's data. -/
theorem attnRow_congr {x x' : Fin 1024 → EReal} {Wt Wt' : Fin 1024 → Fin 1024 → EReal} {b b' : Fin 1024 → EReal}
    {K K' : Fin 2048 → Fin 1024 → EReal} {k k' : Fin 2048} (hx : x = x') (hW : Wt = Wt') (hb : b = b') (hK : K = K') (hk : k = k') :
    Cert.Attn.attnRow x Wt b K k = Cert.Attn.attnRow x' Wt' b' K' k' := by
  subst hx hW hb hK hk; rfl

/-- So does the context row. -/
theorem ctxRow_congr {x x' : Fin 1024 → EReal} {Wt Wt' : Fin 1024 → Fin 1024 → EReal} {b b' : Fin 1024 → EReal}
    {K K' U U' : Fin 2048 → Fin 1024 → EReal} {h h' : Fin 1024} (hx : x = x') (hW : Wt = Wt') (hb : b = b') (hK : K = K')
    (hU : U = U') (hh : h = h') :
    Cert.Attn.ctxRow x Wt b K U h = Cert.Attn.ctxRow x' Wt' b' K' U' h' := by
  subst hx hW hb hK hU hh; rfl

/-! ## The index maps, decided over the grid's 32 points -/

/-- At point t = (b, qi): the query and both output windows sit at block (b, qi, 0), the key and value windows at
    block (b, 0, 0), the weight and bias windows at block (0, 0); b ≤ 3 and qi ≤ 7. -/
theorem idx_facts : ∀ t : Fin cfg2.N,
    win2_0.index t (0 : Fin 3) = win2_6.index t (0 : Fin 3) ∧ win2_0.index t (1 : Fin 3) = win2_6.index t (1 : Fin 3) ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = win2_6.index t (0 : Fin 3) ∧ win2_3.index t (1 : Fin 3) = 0 ∧ win2_3.index t (2 : Fin 3) = 0
    ∧ win2_4.index t (0 : Fin 3) = win2_6.index t (0 : Fin 3) ∧ win2_4.index t (1 : Fin 3) = 0 ∧ win2_4.index t (2 : Fin 3) = 0
    ∧ win2_5.index t (0 : Fin 3) = win2_6.index t (0 : Fin 3) ∧ win2_5.index t (1 : Fin 3) = win2_6.index t (1 : Fin 3) ∧ win2_5.index t (2 : Fin 3) = 0
    ∧ win2_6.index t (0 : Fin 3) ≤ 3 ∧ win2_6.index t (1 : Fin 3) ≤ 7 ∧ win2_6.index t (2 : Fin 3) = 0 :=
  (by decide +kernel : ∀ t : Fin grid2.N, _)

/-- Every block (b, qi, 0) of the weights array is some point's. -/
theorem idx_onto6 : ∀ (q0 : Fin 4) (q1 : Fin 8), ∃ t : Fin cfg2.N, win2_6.index t = ![q0.val, q1.val, 0] :=
  (by decide +kernel : ∀ (q0 : Fin 4) (q1 : Fin 8), ∃ t : Fin grid2.N, win2_6.index t = ![q0.val, q1.val, 0])

/-- Every block (b, qi, 0) of the context array is some point's. -/
theorem idx_onto5 : ∀ (q0 : Fin 4) (q1 : Fin 8), ∃ t : Fin cfg2.N, win2_5.index t = ![q0.val, q1.val, 0] :=
  (by decide +kernel : ∀ (q0 : Fin 4) (q1 : Fin 8), ∃ t : Fin grid2.N, win2_5.index t = ![q0.val, q1.val, 0])

/-! ## Each input block read where its window puts it: array coordinate = block index × block size + coordinate in the block -/

/-- The query block at point t, entry (0, q, h), is the queries array at (b', q', h) when b' is the block's batch and q' its
    row q. -/
theorem iblk_query (c : Dev nD) (t : Fin cfg2.N) (q : Fin 256) (h : Fin 1024) (b' : Fin 4) (q' : Fin 2048)
    (hb : b'.val = win2_0.index t (0 : Fin 3)) (hq : q'.val = win2_0.index t (1 : Fin 3) * 256 + q.val) :
    iblk2 (F := Ideal) V c 0 t (ix3 (0 : Fin 1) q h) = V c main_arg0 (ix3 b' q' h) := by
  obtain ⟨e00, e01, e02, -⟩ := idx_facts t
  show V c main_arg0 (((cfg2.win 0).blk t).view.emb (ix3 0 q h)) = _
  refine congrArg (V c main_arg0) ?_
  funext a; apply Fin.ext
  match a with
  | ⟨0, _⟩ => show win2_0.index t (0 : Fin 3) * 1 + 1 * ((0 : Fin 1) : Nat) = b'.val; omega
  | ⟨1, _⟩ => show win2_0.index t (1 : Fin 3) * 256 + 1 * q.val = q'.val; omega
  | ⟨2, _⟩ => show win2_0.index t (2 : Fin 3) * 1024 + 1 * h.val = h.val; omega

/-- The weight block is the whole transposed query weight. -/
theorem iblk_weight (c : Dev nD) (t : Fin cfg2.N) (h o : Fin 1024) :
    iblk2 (F := Ideal) V c 1 t (ix2 h o) = V c main_v13 (ix2 h o) := by
  obtain ⟨-, -, -, e10, e11, -⟩ := idx_facts t
  show V c main_v13 (((cfg2.win 1).blk t).view.emb (ix2 h o)) = _
  refine congrArg (V c main_v13) ?_
  funext a; apply Fin.ext
  match a with
  | ⟨0, _⟩ => show win2_1.index t (0 : Fin 2) * 1024 + 1 * h.val = h.val; omega
  | ⟨1, _⟩ => show win2_1.index t (1 : Fin 2) * 1024 + 1 * o.val = o.val; omega

/-- The bias block is the whole query bias. -/
theorem iblk_bias (c : Dev nD) (t : Fin cfg2.N) (o : Fin 1024) :
    iblk2 (F := Ideal) V c 2 t (ix2 (0 : Fin 1) o) = V c main_v14 (ix2 (0 : Fin 1) o) := by
  obtain ⟨-, -, -, -, -, e20, e21, -⟩ := idx_facts t
  show V c main_v14 (((cfg2.win 2).blk t).view.emb (ix2 0 o)) = _
  refine congrArg (V c main_v14) ?_
  funext a; apply Fin.ext
  match a with
  | ⟨0, _⟩ => show win2_2.index t (0 : Fin 2) * 1 + 1 * ((0 : Fin 1) : Nat) = ((0 : Fin 1) : Nat); omega
  | ⟨1, _⟩ => show win2_2.index t (1 : Fin 2) * 1024 + 1 * o.val = o.val; omega

/-- The key block at point t is the key rows of the block's batch. -/
theorem iblk_keys (c : Dev nD) (t : Fin cfg2.N) (k' : Fin 2048) (h : Fin 1024) (b' : Fin 4)
    (hb : b'.val = win2_3.index t (0 : Fin 3)) :
    iblk2 (F := Ideal) V c 3 t (ix3 (0 : Fin 1) k' h) = V c main_v6 (ix3 b' k' h) := by
  obtain ⟨-, -, -, -, -, -, -, e30, e31, e32, -⟩ := idx_facts t
  show V c main_v6 (((cfg2.win 3).blk t).view.emb (ix3 0 k' h)) = _
  refine congrArg (V c main_v6) ?_
  funext a; apply Fin.ext
  match a with
  | ⟨0, _⟩ => show win2_3.index t (0 : Fin 3) * 1 + 1 * ((0 : Fin 1) : Nat) = b'.val; omega
  | ⟨1, _⟩ => show win2_3.index t (1 : Fin 3) * 2048 + 1 * k'.val = k'.val; omega
  | ⟨2, _⟩ => show win2_3.index t (2 : Fin 3) * 1024 + 1 * h.val = h.val; omega

/-- The value block at point t is the value rows of the block's batch. -/
theorem iblk_values (c : Dev nD) (t : Fin cfg2.N) (k' : Fin 2048) (h : Fin 1024) (b' : Fin 4)
    (hb : b'.val = win2_4.index t (0 : Fin 3)) :
    iblk2 (F := Ideal) V c 4 t (ix3 (0 : Fin 1) k' h) = V c main_v11 (ix3 b' k' h) := by
  obtain ⟨-, -, -, -, -, -, -, -, -, -, e40, e41, e42, -⟩ := idx_facts t
  show V c main_v11 (((cfg2.win 4).blk t).view.emb (ix3 0 k' h)) = _
  refine congrArg (V c main_v11) ?_
  funext a; apply Fin.ext
  match a with
  | ⟨0, _⟩ => show win2_4.index t (0 : Fin 3) * 1 + 1 * ((0 : Fin 1) : Nat) = b'.val; omega
  | ⟨1, _⟩ => show win2_4.index t (1 : Fin 3) * 2048 + 1 * k'.val = k'.val; omega
  | ⟨2, _⟩ => show win2_4.index t (2 : Fin 3) * 1024 + 1 * h.val = h.val; omega

/-! ## The weights array (window 6) -/

/-- What point t writes back to the weights array is block t of G6. -/
theorem flushed6_eq (c : Dev nD) (t : Fin cfg2.N) :
    (dat2 (F := Ideal) V c).flushed 6 t = ((cfg2.win 6).blk t).view.read (Elt Ideal) (G6 V c) := by
  show (cfg2.win 6).cut (grid2.coords t) ((dat2 (F := Ideal) V c).after 6 t) = _
  rw [after2_6]
  unfold out2_6
  rw [View.canon_unit_zero hz3]
  simp only [View.ld_unit_zero (S := S1x256x1024) hz3, View.ld_unit_zero (S := S1024x1024) hz2, View.ld_unit_zero (S := S1x1024) hz2, View.ld_unit_zero (S := S1x2048x1024) hz3]
  funext y
  obtain ⟨u, q, k, rfl⟩ : ∃ (u : Fin 1) (q : Fin 256) (k : Fin 2048), y = ix3 u q k := ⟨y 0, y 1, y 2, eq_ix3 y⟩
  obtain rfl : u = 0 := Subsingleton.elim _ _
  refine (AttnPayload.pay_weights _ _ _ _ q k).trans ?_
  show _ = G6 V c (((cfg2.win 6).blk t).view.emb (ix3 0 q k))
  unfold G6
  obtain ⟨e00, e01, e02, e10, e11, e20, e21, e30, e31, e32, e40, e41, e42, e50, e51, e52, b0, b1, e62⟩ := idx_facts t
  refine attnRow_congr (funext fun h => ?_) (funext fun h => funext fun o => ?_) (funext fun o => ?_) (funext fun k' => funext fun h => ?_) ?_
  · refine iblk_query V c t q h _ _ ?_ ?_
    · show win2_6.index t (0 : Fin 3) * 1 + 1 * ((0 : Fin 1) : Nat) = win2_0.index t (0 : Fin 3); omega
    · show win2_6.index t (1 : Fin 3) * 256 + 1 * q.val = win2_0.index t (1 : Fin 3) * 256 + q.val; omega
  · exact iblk_weight V c t h o
  · exact iblk_bias V c t o
  · refine iblk_keys V c t k' h _ ?_
    show win2_6.index t (0 : Fin 3) * 1 + 1 * ((0 : Fin 1) : Nat) = win2_3.index t (0 : Fin 3); omega
  · apply Fin.ext
    show k.val = win2_6.index t (2 : Fin 3) * 2048 + 1 * k.val; omega

/-- An index of the weights array is in point t's block iff each coordinate is in the block's range on its axis. -/
theorem mem_blk6 (t : Fin cfg2.N) (i : S4x2048x2048.Idx) :
    i ∈ ((cfg2.win 6).blk t).view.set ↔ ∀ a : Fin 3, win2_6.index t a * S1x256x2048.size a ≤ (i a).val ∧ (i a).val < win2_6.index t a * S1x256x2048.size a + S1x256x2048.size a := by
  show i ∈ ((View.whole main_v15_1).slice (win2_6.rect t)).set ↔ _
  rw [View.set_slice_whole, Rect.mem_set_unit]
  exact Iff.rfl

/-- Entry (b, q, k) of the weights array is in the block of the point at (b, q / 256). -/
theorem cover6 (i : S4x2048x2048.Idx) :
    ∃ t : Fin cfg2.N, (cfg2.win 6).flush t = true ∧ i ∈ ((cfg2.win 6).blk t).view.set := by
  have hi0 : (i 0).val < 4 := (i 0).isLt
  have hi1 : (i 1).val < 2048 := (i 1).isLt
  have hi2 : (i 2).val < 2048 := (i 2).isLt
  obtain ⟨t, ht⟩ := idx_onto6 ⟨(i 0).val, hi0⟩ ⟨(i 1).val / 256, by omega⟩
  have q0 : win2_6.index t (0 : Fin 3) = (i 0).val := congrFun ht 0
  have q1 : win2_6.index t (1 : Fin 3) = (i 1).val / 256 := congrFun ht 1
  have q2 : win2_6.index t (2 : Fin 3) = 0 := congrFun ht 2
  refine ⟨t, flush2_6 t, ?_⟩
  rw [mem_blk6]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 256 ≤ (i 1).val ∧ (i 1).val < win2_6.index t (1 : Fin 3) * 256 + 256; omega
  | ⟨2, _⟩ => show win2_6.index t (2 : Fin 3) * 2048 ≤ (i 2).val ∧ (i 2).val < win2_6.index t (2 : Fin 3) * 2048 + 2048; omega

/-- The weights array the region leaves is G6: every point writes its block of G6 and the blocks cover the array. -/
theorem final6 (c : Dev nD) : (dat2 (F := Ideal) V c).arrAt 6 cfg2.N = G6 V c :=
  (dat2 (F := Ideal) V c).arrAt_eq_of_cover 6 (G6 V c) (fun t _ => flushed6_eq V c t) cover6

/-! ## The context array (window 5) -/

/-- What point t writes back to the context array is block t of G5. -/
theorem flushed5_eq (c : Dev nD) (t : Fin cfg2.N) :
    (dat2 (F := Ideal) V c).flushed 5 t = ((cfg2.win 5).blk t).view.read (Elt Ideal) (G5 V c) := by
  show (cfg2.win 5).cut (grid2.coords t) ((dat2 (F := Ideal) V c).after 5 t) = _
  rw [after2_5]
  unfold out2_5
  rw [View.canon_unit_zero hz3]
  simp only [View.ld_unit_zero (S := S1x256x1024) hz3, View.ld_unit_zero (S := S1024x1024) hz2, View.ld_unit_zero (S := S1x1024) hz2, View.ld_unit_zero (S := S1x2048x1024) hz3]
  funext y
  obtain ⟨u, q, h, rfl⟩ : ∃ (u : Fin 1) (q : Fin 256) (h : Fin 1024), y = ix3 u q h := ⟨y 0, y 1, y 2, eq_ix3 y⟩
  obtain rfl : u = 0 := Subsingleton.elim _ _
  refine (AttnPayload.pay_context _ _ _ _ _ q h).trans ?_
  show _ = G5 V c (((cfg2.win 5).blk t).view.emb (ix3 0 q h))
  unfold G5
  obtain ⟨e00, e01, e02, e10, e11, e20, e21, e30, e31, e32, e40, e41, e42, e50, e51, e52, b0, b1, e62⟩ := idx_facts t
  refine ctxRow_congr (funext fun h' => ?_) (funext fun h' => funext fun o => ?_) (funext fun o => ?_) (funext fun k' => funext fun h' => ?_) (funext fun k' => funext fun h' => ?_) ?_
  · refine iblk_query V c t q h' _ _ ?_ ?_
    · show win2_5.index t (0 : Fin 3) * 1 + 1 * ((0 : Fin 1) : Nat) = win2_0.index t (0 : Fin 3); omega
    · show win2_5.index t (1 : Fin 3) * 256 + 1 * q.val = win2_0.index t (1 : Fin 3) * 256 + q.val; omega
  · exact iblk_weight V c t h' o
  · exact iblk_bias V c t o
  · refine iblk_keys V c t k' h' _ ?_
    show win2_5.index t (0 : Fin 3) * 1 + 1 * ((0 : Fin 1) : Nat) = win2_3.index t (0 : Fin 3); omega
  · refine iblk_values V c t k' h' _ ?_
    show win2_5.index t (0 : Fin 3) * 1 + 1 * ((0 : Fin 1) : Nat) = win2_4.index t (0 : Fin 3); omega
  · apply Fin.ext
    show h.val = win2_5.index t (2 : Fin 3) * 1024 + 1 * h.val; omega

/-- An index of the context array is in point t's block iff each coordinate is in the block's range on its axis. -/
theorem mem_blk5 (t : Fin cfg2.N) (i : S4x2048x1024.Idx) :
    i ∈ ((cfg2.win 5).blk t).view.set ↔ ∀ a : Fin 3, win2_5.index t a * S1x256x1024.size a ≤ (i a).val ∧ (i a).val < win2_5.index t a * S1x256x1024.size a + S1x256x1024.size a := by
  show i ∈ ((View.whole main_v15_0).slice (win2_5.rect t)).set ↔ _
  rw [View.set_slice_whole, Rect.mem_set_unit]
  exact Iff.rfl

/-- Entry (b, q, h) of the context array is in the block of the point at (b, q / 256). -/
theorem cover5 (i : S4x2048x1024.Idx) :
    ∃ t : Fin cfg2.N, (cfg2.win 5).flush t = true ∧ i ∈ ((cfg2.win 5).blk t).view.set := by
  have hi0 : (i 0).val < 4 := (i 0).isLt
  have hi1 : (i 1).val < 2048 := (i 1).isLt
  have hi2 : (i 2).val < 1024 := (i 2).isLt
  obtain ⟨t, ht⟩ := idx_onto5 ⟨(i 0).val, hi0⟩ ⟨(i 1).val / 256, by omega⟩
  have q0 : win2_5.index t (0 : Fin 3) = (i 0).val := congrFun ht 0
  have q1 : win2_5.index t (1 : Fin 3) = (i 1).val / 256 := congrFun ht 1
  have q2 : win2_5.index t (2 : Fin 3) = 0 := congrFun ht 2
  refine ⟨t, flush2_5 t, ?_⟩
  rw [mem_blk5]
  intro a
  match a with
  | ⟨0, _⟩ => show win2_5.index t (0 : Fin 3) * 1 ≤ (i 0).val ∧ (i 0).val < win2_5.index t (0 : Fin 3) * 1 + 1; omega
  | ⟨1, _⟩ => show win2_5.index t (1 : Fin 3) * 256 ≤ (i 1).val ∧ (i 1).val < win2_5.index t (1 : Fin 3) * 256 + 256; omega
  | ⟨2, _⟩ => show win2_5.index t (2 : Fin 3) * 1024 ≤ (i 2).val ∧ (i 2).val < win2_5.index t (2 : Fin 3) * 1024 + 1024; omega

/-- The context array the region leaves is G5. -/
theorem final5 (c : Dev nD) : (dat2 (F := Ideal) V c).arrAt 5 cfg2.N = G5 V c :=
  (dat2 (F := Ideal) V c).arrAt_eq_of_cover 5 (G5 V c) (fun t _ => flushed5_eq V c t) cover5

/-! ## The two arrays read at one entry -/

/-- The weights array the region leaves, at (b, q, k). -/
theorem final2_weights (c : Dev nD) (b : Fin 4) (q k : Fin 2048) :
    (dat2 (F := Ideal) V c).arrAt 6 cfg2.N (ix3 b q k)
      = Cert.Attn.attnRow (fun h => V c main_arg0 (ix3 b q h)) (fun h o => V c main_v13 (ix2 h o))
          (fun o => V c main_v14 (ix2 (0 : Fin 1) o)) (fun k' h => V c main_v6 (ix3 b k' h)) k :=
  congrFun (final6 V c) (ix3 b q k)

/-- The context array the region leaves, at (b, q, h). -/
theorem final2_context (c : Dev nD) (b : Fin 4) (q : Fin 2048) (h : Fin 1024) :
    (dat2 (F := Ideal) V c).arrAt 5 cfg2.N (ix3 b q h)
      = Cert.Attn.ctxRow (fun h' => V c main_arg0 (ix3 b q h')) (fun h' o => V c main_v13 (ix2 h' o))
          (fun o => V c main_v14 (ix2 (0 : Fin 1) o)) (fun k' h' => V c main_v6 (ix3 b k' h'))
          (fun k' h' => V c main_v11 (ix3 b k' h')) h :=
  congrFun (final5 V c) (ix3 b q h)

end Cert.KernelIdeal.AttnRegion

end
-- ==== Proof.KernelValue.lean ====
/-
  The idealized kernel program's two results, entry by entry, from the nine arguments.  The last region leaves in its
  weights array at (b, q, k) the softmax weights of query row (b, q) — through the query layer — against the key rows it
  finds, and in its context array their mix of the value rows it finds.  The key rows it finds are the first region's
  output viewed [4, 2048, 1024], that is the key layer of the keys' rows; the value rows are the second region's, the
  value layer of the values' rows.  The weight a region finds is the argument weight transposed, its bias row the
  argument bias.  Composed, these are the specification's attention weights and context of the arguments.
-/
import proofs.«119014_j16716012716549_2_alg».proof.Proof.Gen.KernelIdeal.Frame
import proofs.«119014_j16716012716549_2_alg».proof.Proof.HostGlue
import proofs.«119014_j16716012716549_2_alg».proof.Proof.ProjRegion
import proofs.«119014_j16716012716549_2_alg».proof.Proof.AttnRegion
import proofs.«119014_j16716012716549_2_alg».proof.Proof.Spec
import proofs.«119014_j16716012716549_2_alg».proof.Proof.Result

set_option maxRecDepth 16384

noncomputable section

namespace Cert.KernelIdeal.KernelValue

open Cert.KernelIdeal Cert.KernelIdeal.Gen Cert.KernelIdeal.HostGlue
open Idealize.ShloMosaic Idealize.ShloMosaic.TcCoe Idealize.ShloMosaic.ValueIdx Idealize.SL.Sem

/-- A linear layer's entry depends only on the row, the weight and the bias. -/
theorem lin_congr {x x' : Fin 1024 → EReal} {Wt Wt' : Fin 1024 → Fin 1024 → EReal} {b b' : Fin 1024 → EReal}
    (hx : x = x') (hW : Wt = Wt') (hb : b = b') (o : Fin 1024) :
    Cert.Attn.lin x Wt b o = Cert.Attn.lin x' Wt' b' o := by subst hx hW hb; rfl

theorem attnRow_congr {x x' : Fin 1024 → EReal} {Wt Wt' : Fin 1024 → Fin 1024 → EReal} {b b' : Fin 1024 → EReal}
    {K K' : Fin 2048 → Fin 1024 → EReal} (hx : x = x') (hW : Wt = Wt') (hb : b = b') (hK : K = K') (k : Fin 2048) :
    Cert.Attn.attnRow x Wt b K k = Cert.Attn.attnRow x' Wt' b' K' k := by subst hx hW hb hK; rfl

theorem ctxRow_congr {x x' : Fin 1024 → EReal} {Wt Wt' : Fin 1024 → Fin 1024 → EReal} {b b' : Fin 1024 → EReal}
    {K K' V V' : Fin 2048 → Fin 1024 → EReal} (hx : x = x') (hW : Wt = Wt') (hb : b = b') (hK : K = K') (hV : V = V')
    (h : Fin 1024) :
    Cert.Attn.ctxRow x Wt b K V h = Cert.Attn.ctxRow x' Wt' b' K' V' h := by subst hx hW hb hK hV; rfl

variable (m : (ℓ : Loc nD τ sig) → Buf (Elt Ideal) ℓ) (ρ : Dev nD → PrngReg) (c : Dev nD)

/-- The key rows the last region finds are the key layer of the keys' rows. -/
theorem key_rows (b : Fin 4) :
    (fun (k' : Fin 2048) (h : Fin 1024) => V5 m ρ c main_v6 (ix3 b k' h))
      = Cert.Attn.projRows (m ((c : Thread nD τ).loc main_arg1)) (m ((c : Thread nD τ).loc main_arg5)) (m ((c : Thread nD τ).loc main_arg6)) b := by
  funext k' h
  refine (V5_v6_at m ρ c b k' h).trans ?_
  refine (Cert.KernelIdeal.ProjRegion.final0 (V1 m ρ) c (flat b k') h).trans ?_
  exact lin_congr (funext fun h' => V1_v0_at m ρ c b k' h') (funext fun h' => funext fun o => V1_v3_at m ρ c h' o)
    (funext fun o => V1_v4_at m ρ c o) h

/-- The value rows the last region finds are the value layer of the values' rows. -/
theorem value_rows (b : Fin 4) :
    (fun (k' : Fin 2048) (h : Fin 1024) => V5 m ρ c main_v11 (ix3 b k' h))
      = Cert.Attn.projRows (m ((c : Thread nD τ).loc main_arg2)) (m ((c : Thread nD τ).loc main_arg7)) (m ((c : Thread nD τ).loc main_arg8)) b := by
  funext k' h
  refine (V5_v11_at m ρ c b k' h).trans ?_
  refine (Cert.KernelIdeal.ProjRegion.final1 (V3 m ρ) c (flat b k') h).trans ?_
  exact lin_congr (funext fun h' => V3_v1_at m ρ c b k' h') (funext fun h' => funext fun o => V3_v8_at m ρ c h' o)
    (funext fun o => V3_v9_at m ρ c o) h

/-- The weights buffer after the run, at (b, q, k). -/
theorem weights_entry (b : Fin 4) (q k : Fin 2048) :
    W6 m ρ c (Proc.devRef .tc main_v15_1) (ix3 b q k)
      = Cert.Attn.attn (m ((c : Thread nD τ).loc main_arg0)) (m ((c : Thread nD τ).loc main_arg1)) (m ((c : Thread nD τ).loc main_arg3)) (m ((c : Thread nD τ).loc main_arg4))
          (m ((c : Thread nD τ).loc main_arg5)) (m ((c : Thread nD τ).loc main_arg6)) b q k := by
  refine (congrFun (W6_arr m ρ c 6) (ix3 b q k)).trans ?_
  refine (Cert.KernelIdeal.AttnRegion.final2_weights (V5 m ρ) c b q k).trans ?_
  exact attnRow_congr (funext fun h => V5_arg0_at m ρ c b q h) (funext fun h => funext fun o => V5_v13_at m ρ c h o)
    (funext fun o => V5_v14_at m ρ c o) (key_rows m ρ c b) k

/-- The context buffer after the run, at (b, q, h). -/
theorem context_entry (b : Fin 4) (q : Fin 2048) (h : Fin 1024) :
    W6 m ρ c (Proc.devRef .tc main_v15_0) (ix3 b q h)
      = Cert.Attn.ctx (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) b q h := by
  refine (congrFun (W6_arr m ρ c 5) (ix3 b q h)).trans ?_
  refine (Cert.KernelIdeal.AttnRegion.final2_context (V5 m ρ) c b q h).trans ?_
  exact ctxRow_congr (funext fun h' => V5_arg0_at m ρ c b q h') (funext fun h' => funext fun o => V5_v13_at m ρ c h' o)
    (funext fun o => V5_v14_at m ρ c o) (key_rows m ρ c b) (value_rows m ρ c b) h

/-- The weights buffer after the run is the specification's weights array of the arguments. -/
theorem weights_array :
    (W6 m ρ c (Proc.devRef .tc main_v15_1) : (⟨3, ![4, 2048, 2048]⟩ : Shape).Idx → EReal)
      = Cert.Attn.attnArr (m ((c : Thread nD τ).loc main_arg0)) (m ((c : Thread nD τ).loc main_arg1)) (m ((c : Thread nD τ).loc main_arg3)) (m ((c : Thread nD τ).loc main_arg4))
          (m ((c : Thread nD τ).loc main_arg5)) (m ((c : Thread nD τ).loc main_arg6)) :=
  Cert.Attn.ext3 _ _ fun b q k => weights_entry m ρ c b q k

/-- The context buffer after the run is the specification's context array of the arguments. -/
theorem context_array :
    (W6 m ρ c (Proc.devRef .tc main_v15_0) : (⟨3, ![4, 2048, 1024]⟩ : Shape).Idx → EReal)
      = Cert.Attn.ctxArr (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) :=
  Cert.Attn.ext3 _ _ fun b q h => context_entry m ρ c b q h

end Cert.KernelIdeal.KernelValue

end
-- ==== Proof.Consts.lean ====
/-
  The float words the two programs spell, as the extended reals they denote, and the one fact joining the two
  spellings of the score scale: 1024 = 32², so the reciprocal square root of 1024 is 1/32 = 2⁻⁵ exactly — the word
  the kernel multiplies by is the number the reference computes.
-/
import Idealize.ShloMosaic.PureOps.Ideal
import proofs.«119014_j16716012716549_2_alg».proof.Proof.Spec

noncomputable section

namespace Cert.Consts

open Idealize.ShloMosaic

/-- The word of 1024.0 denotes the real 1024. -/
theorem ofBits_1024 : Ideal.ofBits .f32 0x44800000#32 = ((1024 : ℝ) : EReal) := by
  simp [Ideal.ofBits, Ideal.ieee, -EReal.coe_mul]; norm_num

/-- The word of 0.03125 denotes the real 1/32. -/
theorem ofBits_inv32 : Ideal.ofBits .f32 0x3D000000#32 = (((32 : ℝ)⁻¹ : ℝ) : EReal) := by
  simp [Ideal.ofBits, Ideal.ieee, -EReal.coe_mul]; norm_num

/-- √1024 = 32. -/
theorem sqrt_1024 : Real.sqrt 1024 = 32 := by
  rw [show (1024 : ℝ) = 32 ^ 2 by norm_num]
  exact Real.sqrt_sq (by norm_num)

/-- The reciprocal square root of the word of 1024.0 is the scale the kernel multiplies by. -/
theorem rsqrt_1024 : Ideal.rsqrt (Ideal.ofBits .f32 0x44800000#32) = Cert.Attn.scale := by
  rw [ofBits_1024, Ideal.rsqrt_coe, if_neg (by norm_num), if_neg (by norm_num), sqrt_1024]
  unfold Cert.Attn.scale
  rw [ofBits_inv32]

end Cert.Consts

end
-- ==== Proof.RefValue.lean ====
/-
  The reference program's two results at an entry: its attention weights and its context are the specification's.
-/
import proofs.«119014_j16716012716549_2_alg».proof.Proof.Gen.ReferenceIdeal.Run
import proofs.«119014_j16716012716549_2_alg».proof.Proof.Gen.ReferenceIdeal.Read
import proofs.«119014_j16716012716549_2_alg».proof.Proof.Spec
import proofs.«119014_j16716012716549_2_alg».proof.Proof.Consts
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The query's linear layer at (b, l, o): the row's product with the transposed weight, plus the bias. -/
theorem proj_q (x : (⟨S4x2048x1024, .f32⟩ : BufTy).Contents (Elt Ideal)) (W : (⟨S1024x1024, .f32⟩ : BufTy).Contents (Elt Ideal)) (c : (⟨S1024, .f32⟩ : BufTy).Contents (Elt Ideal)) (b : Fin 4) (l : Fin 2048) (o : Fin 1024) :
    Read.val_main_v4 (F := Ideal) x W c (ix3 b l o)
      = Cert.Attn.lin (Cert.Attn.row x b l) (Cert.Attn.wT W) (Cert.Attn.bias c) o := by
  rw [Read.val_main_v4_apply, Read.val_main_v1_apply, Read.val_main_v3_apply, Read.val_main_v2_apply]
  -- the operands' indices, by coordinates
  have e1 : ∀ h : Fin 1024, Read.lidx_main_v1 (ix3 b l o) h = ix3 b l h := fun h => funext fun a => Fin.ext (by
    match a with | ⟨0, _⟩ => rfl | ⟨1, _⟩ => rfl | ⟨2, _⟩ => rfl)
  have e2 : ∀ h : Fin 1024, Read.ridx_main_v1 (ix3 b l o) h = ix2 o h := fun h => funext fun a => Fin.ext (by
    match a with | ⟨0, _⟩ => rfl | ⟨1, _⟩ => rfl)
  have e3 : Read.idx_main_v2 (Read.idx_main_v3 (ix3 b l o)) = ix1 o := funext fun a => Fin.ext (by
    match a with | ⟨0, _⟩ => rfl)
  rw [e3, Ideal.addf_def]
  unfold Cert.Attn.lin Cert.Attn.row Cert.Attn.wT Cert.Attn.bias
  refine congrArg (· + c (ix1 o)) (Finset.sum_congr rfl fun h _ => ?_)
  rw [e1, e2]

/-- The key's linear layer at (b, l, o): the row's product with the transposed weight, plus the bias. -/
theorem proj_k (x : (⟨S4x2048x1024, .f32⟩ : BufTy).Contents (Elt Ideal)) (W : (⟨S1024x1024, .f32⟩ : BufTy).Contents (Elt Ideal)) (c : (⟨S1024, .f32⟩ : BufTy).Contents (Elt Ideal)) (b : Fin 4) (l : Fin 2048) (o : Fin 1024) :
    Read.val_main_v8 (F := Ideal) x W c (ix3 b l o)
      = Cert.Attn.lin (Cert.Attn.row x b l) (Cert.Attn.wT W) (Cert.Attn.bias c) o := by
  rw [Read.val_main_v8_apply, Read.val_main_v5_apply, Read.val_main_v7_apply, Read.val_main_v6_apply]
  -- the operands' indices, by coordinates
  have e1 : ∀ h : Fin 1024, Read.lidx_main_v5 (ix3 b l o) h = ix3 b l h := fun h => funext fun a => Fin.ext (by
    match a with | ⟨0, _⟩ => rfl | ⟨1, _⟩ => rfl | ⟨2, _⟩ => rfl)
  have e2 : ∀ h : Fin 1024, Read.ridx_main_v5 (ix3 b l o) h = ix2 o h := fun h => funext fun a => Fin.ext (by
    match a with | ⟨0, _⟩ => rfl | ⟨1, _⟩ => rfl)
  have e3 : Read.idx_main_v6 (Read.idx_main_v7 (ix3 b l o)) = ix1 o := funext fun a => Fin.ext (by
    match a with | ⟨0, _⟩ => rfl)
  rw [e3, Ideal.addf_def]
  unfold Cert.Attn.lin Cert.Attn.row Cert.Attn.wT Cert.Attn.bias
  refine congrArg (· + c (ix1 o)) (Finset.sum_congr rfl fun h _ => ?_)
  rw [e1, e2]

/-- The value's linear layer at (b, l, o): the row's product with the transposed weight, plus the bias. -/
theorem proj_v (x : (⟨S4x2048x1024, .f32⟩ : BufTy).Contents (Elt Ideal)) (W : (⟨S1024x1024, .f32⟩ : BufTy).Contents (Elt Ideal)) (c : (⟨S1024, .f32⟩ : BufTy).Contents (Elt Ideal)) (b : Fin 4) (l : Fin 2048) (o : Fin 1024) :
    Read.val_main_v12 (F := Ideal) x W c (ix3 b l o)
      = Cert.Attn.lin (Cert.Attn.row x b l) (Cert.Attn.wT W) (Cert.Attn.bias c) o := by
  rw [Read.val_main_v12_apply, Read.val_main_v9_apply, Read.val_main_v11_apply, Read.val_main_v10_apply]
  -- the operands' indices, by coordinates
  have e1 : ∀ h : Fin 1024, Read.lidx_main_v9 (ix3 b l o) h = ix3 b l h := fun h => funext fun a => Fin.ext (by
    match a with | ⟨0, _⟩ => rfl | ⟨1, _⟩ => rfl | ⟨2, _⟩ => rfl)
  have e2 : ∀ h : Fin 1024, Read.ridx_main_v9 (ix3 b l o) h = ix2 o h := fun h => funext fun a => Fin.ext (by
    match a with | ⟨0, _⟩ => rfl | ⟨1, _⟩ => rfl)
  have e3 : Read.idx_main_v10 (Read.idx_main_v11 (ix3 b l o)) = ix1 o := funext fun a => Fin.ext (by
    match a with | ⟨0, _⟩ => rfl)
  rw [e3, Ideal.addf_def]
  unfold Cert.Attn.lin Cert.Attn.row Cert.Attn.wT Cert.Attn.bias
  refine congrArg (· + c (ix1 o)) (Finset.sum_congr rfl fun h _ => ?_)
  rw [e1, e2]

/-- The scores of query row (b, q): the specification's, of the projected query row against the projected key rows. -/
def rowScores (x0 x1 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (q : Fin 2048) : Fin 2048 → EReal :=
  Cert.Attn.score (Cert.Attn.lin (Cert.Attn.row x0 b q) (Cert.Attn.wT x3) (Cert.Attn.bias x4))
    (Cert.Attn.projRows x1 x5 x6 b)

/-- The factor the reference scales by, the reciprocal square root of 1024, is the specification's scale. -/
theorem scale_entry (i : S4x2048x2048.Idx) : Read.val_main_v14 (F := Ideal) i = Cert.Attn.scale := by
  rw [Read.val_main_v14_apply, Read.val_main_v0_apply, Read.val_main_cst_apply, Ideal.hostUnary_rsqrt_def,
    Ideal.ofBits_def]
  exact Cert.Consts.rsqrt_1024

/-- The scaled score at (b, q, k). -/
theorem score_entry (x0 x1 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (q k : Fin 2048) :
    Read.val_main_v15 (F := Ideal) x0 x1 x3 x4 x5 x6 (ix3 b q k) = rowScores x0 x1 x3 x4 x5 x6 b q k := by
  rw [Read.val_main_v15_apply, Read.val_main_v13_apply, scale_entry, Ideal.mulf_def]
  unfold rowScores Cert.Attn.score Cert.Attn.projRows
  refine congrArg (· * Cert.Attn.scale) (Finset.sum_congr rfl fun h _ => ?_)
  -- the operands' indices, by coordinates
  have e1 : Read.lidx_main_v13 (ix3 b q k) h = ix3 b q h := funext fun a => Fin.ext (by
    match a with | ⟨0, _⟩ => rfl | ⟨1, _⟩ => rfl | ⟨2, _⟩ => rfl)
  have e2 : Read.ridx_main_v13 (ix3 b q k) h = ix3 b k h := funext fun a => Fin.ext (by
    match a with | ⟨0, _⟩ => rfl | ⟨1, _⟩ => rfl | ⟨2, _⟩ => rfl)
  rw [e1, e2, proj_q, proj_k]

/-- A maximum over the last axis at (b, q): the fold of max over that row's entries, from the initial value. -/
theorem reduce_max_row (y : S4x2048x2048.Idx → EReal) (init : S_.Idx → EReal) (b : Fin 4) (q : Fin 2048) :
    Host.reduce (FloatOps.maximumf (F := Ideal) (φ := .f32)) y init reducesTo_S4x2048x2048_S4x2048_d2 h_S_ (ix2 b q)
      = (Finset.univ : Finset (Fin 2048)).fold max (init (Shape.Idx.first h_S_)) (fun k => y (ix3 b q k)) := by
  have h : S4x2048x2048.Reduces [2] S4x2048 := by decide
  rw [Host.reduce_eq_fold_single _ _ _ _ h]
  exact Finset.fold_congr (fun k _ => congrArg y (funext fun a => Fin.ext (by
    match a with | ⟨0, _⟩ => rfl | ⟨1, _⟩ => rfl | ⟨2, _⟩ => rfl)))

/-- The row maximum at (b, q): taking the maximum with −∞ once more changes nothing. -/
theorem rowmax_entry (x0 x1 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (q : Fin 2048) :
    Read.val_main_v18 (F := Ideal) x0 x1 x3 x4 x5 x6 (ix2 b q) = Cert.Attn.rowMax (rowScores x0 x1 x3 x4 x5 x6 b q) := by
  rw [Read.val_main_v18_apply, Read.val_main_v17_apply, Read.val_main_cst_1_apply, Ideal.maximumf_def, Ideal.ofBits_def]
  unfold Read.val_main_v16
  rw [reduce_max_row, Read.val_main_cst_0_apply, Ideal.ofBits_def]
  have e : (fun k => Read.val_main_v15 (F := Ideal) x0 x1 x3 x4 x5 x6 (ix3 b q k)) = rowScores x0 x1 x3 x4 x5 x6 b q :=
    funext fun k => score_entry x0 x1 x3 x4 x5 x6 b q k
  rw [e]
  unfold Cert.Attn.rowMax Cert.Attn.negInf
  exact max_eq_right ((Finset.le_fold_max _).mpr (Or.inl le_rfl))

/-- The shifted exponential at (b, q, k). -/
theorem exp_entry (x0 x1 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (q k : Fin 2048) :
    Read.val_main_v22 (F := Ideal) x0 x1 x3 x4 x5 x6 (ix3 b q k) = Cert.Attn.expRow (rowScores x0 x1 x3 x4 x5 x6 b q) k := by
  rw [Read.val_main_v22_apply, Read.val_main_v21_apply, Read.val_main_v20_apply, Read.val_main_v19_apply, score_entry,
    Ideal.hostUnary_exp_def, Ideal.subf_def]
  have e : Read.idx_main_v19 (Read.idx_main_v20 (ix3 b q k)) = ix2 b q := funext fun a => Fin.ext (by
    match a with | ⟨0, _⟩ => rfl | ⟨1, _⟩ => rfl)
  rw [e, rowmax_entry]
  rfl

/-- The row's sum of exponentials at (b, q): the sum from zero. -/
theorem sum_entry (x0 x1 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (q : Fin 2048) :
    Read.val_main_v23 (F := Ideal) x0 x1 x3 x4 x5 x6 (ix2 b q) = ∑ k : Fin 2048, Cert.Attn.expRow (rowScores x0 x1 x3 x4 x5 x6 b q) k := by
  rw [Read.val_main_v23_apply, Read.val_main_cst_2_apply, Ideal.ofBits_def, Ideal.ofBits_zero_f32, zero_add]
  refine Finset.sum_congr rfl fun k _ => ?_
  have e : Read.idx_main_v23 (ix2 b q) k = ix3 b q k := funext fun a => Fin.ext (by
    match a with | ⟨0, _⟩ => rfl | ⟨1, _⟩ => rfl | ⟨2, _⟩ => rfl)
  rw [e, exp_entry]

/-- The weights at (b, q, k): the softmax of the row's scores. -/
theorem softmax_entry (x0 x1 : (⟨S4x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (b : Fin 4) (q k : Fin 2048) :
    Read.val_main_v26 (F := Ideal) x0 x1 x3 x4 x5 x6 (ix3 b q k) = Cert.Attn.softmax (rowScores x0 x1 x3 x4 x5 x6 b q) k := by
  rw [Read.val_main_v26_apply, Read.val_main_v25_apply, Read.val_main_v24_apply, exp_entry, Ideal.hostDivf_def]
  have e : Read.idx_main_v24 (Read.idx_main_v25 (ix3 b q k)) = ix2 b q := funext fun a => Fin.ext (by
    match a with | ⟨0, _⟩ => rfl | ⟨1, _⟩ => rfl)
  rw [e, sum_entry]
  rfl

/-- The reference's attention weights at (b, q, k). -/
theorem weights_entry (x0 x1 : (⟨S4x2048x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 4) (q k : Fin 2048) :
    Read.val_main_v26 (F := Ideal) x0 x1 x3 x4 x5 x6 (ix3 b q k) = Cert.Attn.attn x0 x1 x3 x4 x5 x6 b q k := by
  rw [softmax_entry]
  rfl

/-- The reference's context at (b, q, h). -/
theorem context_entry (x0 x1 x2 : (⟨S4x2048x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (b : Fin 4) (q : Fin 2048) (h : Fin 1024) :
    Read.val_main_v27 (F := Ideal) x0 x1 x2 x3 x4 x5 x6 x7 x8 (ix3 b q h)
      = Cert.Attn.ctx x0 x1 x2 x3 x4 x5 x6 x7 x8 b q h := by
  rw [Read.val_main_v27_apply]
  unfold Cert.Attn.ctx Cert.Attn.ctxRow Cert.Attn.mix
  refine Finset.sum_congr rfl fun k _ => ?_
  -- the operands' indices, by coordinates
  have e1 : Read.lidx_main_v27 (ix3 b q h) k = ix3 b q k := funext fun a => Fin.ext (by
    match a with | ⟨0, _⟩ => rfl | ⟨1, _⟩ => rfl | ⟨2, _⟩ => rfl)
  have e2 : Read.ridx_main_v27 (ix3 b q h) k = ix3 b k h := funext fun a => Fin.ext (by
    match a with | ⟨0, _⟩ => rfl | ⟨1, _⟩ => rfl | ⟨2, _⟩ => rfl)
  rw [e1, e2, softmax_entry, proj_v]
  rfl

end Cert.ReferenceIdeal.RefValue

end
-- ==== Proof.lean ====
/-
  The certificate of one attention kernel against its reference: scaled dot-product attention with its three linear
  layers, over queries, keys and values of extents [4, 2048, 1024].

  Both programs compute, for every batch b and query row q, the softmax weights of the scaled scores of the projected
  query row against the 2048 projected key rows, and the mix of the projected value rows by those weights.  The kernel
  does it in three regions — the key layer, the value layer, then per tile of 256 query rows the query layer, the
  scores, the softmax and the mix — with layout steps on the host between them; the reference in one line of array
  operations.  Read at the extended reals, where a change of float format is the identity and sums may be taken in any
  order, the two differ only in how the score scale is spelt: the kernel multiplies by the word of 2⁻⁵, the reference
  by the reciprocal square root of 1024, and 1024 = 32².

  The three frames: the kernel's two are the generated frame certificates; the reference's is its generated run with
  the results dropped.  The idealization rewrote nothing, so the kernel's idealized text is its own.  The value claim:
  each program's run ends with its two result buffers at the specification's context array and weights array of the
  arguments (the kernel's from the last region's output read back through the earlier regions and the host's layout
  steps; the reference's operation by operation), and the arguments agree.
-/
import proofs.«119014_j16716012716549_2_alg».proof.Defs
import proofs.«119014_j16716012716549_2_alg».proof.Proof.Gen.Kernel
import proofs.«119014_j16716012716549_2_alg».proof.Proof.Gen.Kernel.Frame
import proofs.«119014_j16716012716549_2_alg».proof.Proof.Gen.KernelIdeal
import proofs.«119014_j16716012716549_2_alg».proof.Proof.Gen.KernelIdeal.Frame
import proofs.«119014_j16716012716549_2_alg».proof.Proof.Gen.ReferenceIdeal
import proofs.«119014_j16716012716549_2_alg».proof.Proof.Gen.ReferenceIdeal.Run
import proofs.«119014_j16716012716549_2_alg».proof.Proof.Gen.ReferenceIdeal.Read
import proofs.«119014_j16716012716549_2_alg».proof.Proof.Gen.Pre_finite_inputs
import proofs.«119014_j16716012716549_2_alg».proof.Proof.Result
import proofs.«119014_j16716012716549_2_alg».proof.Proof.KernelRun
import proofs.«119014_j16716012716549_2_alg».proof.Proof.KernelValue
import proofs.«119014_j16716012716549_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with the arguments as launched. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both runs end with the context buffer at the specification's context array and the weights buffer at its weights
    array, of arguments that agree. -/
theorem algebraic : Cert.algebraic_KernelIdeal_ReferenceIdeal := by
  intro m ρ m' ρ' _ hagree
  refine ⟨fun c => Cert.Attn.ctxArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Attn.attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c =>
      ⟨(h c).1.trans (Cert.KernelIdeal.KernelValue.context_array m ρ c),
        (h c).2.1.trans (Cert.KernelIdeal.KernelValue.weights_array m ρ c), (h c).2.2⟩)
      (Cert.KernelIdeal.ValueRun.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8⟩ := hagree c
      rw [Cert.ReferenceIdeal.Read.val_main_v27_eq, e0, e1, e2, e3, e4, e5, e6, e7, e8]
      exact Cert.Attn.ext3 _ _ fun b q h => Cert.ReferenceIdeal.RefValue.context_entry _ _ _ _ _ _ _ _ _ b q h
    · obtain ⟨e0, e1, e2, e3, e4, e5, e6, e7, e8⟩ := hagree c
      rw [Cert.ReferenceIdeal.Read.val_main_v26_eq, e0, e1, e3, e4, e5, e6]
      exact Cert.Attn.ext3 _ _ fun b q k => Cert.ReferenceIdeal.RefValue.weights_entry _ _ _ _ _ _ b q k

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
